-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x256x512 : Shape := ⟨4, ![4, 32, 256, 512]⟩
abbrev S512x512 : Shape := ⟨2, ![512, 512]⟩
abbrev S512 : Shape := ⟨1, ![512]⟩
abbrev S2x8 : Shape := ⟨2, ![2, 8]⟩
abbrev S32x8 : Shape := ⟨2, ![32, 8]⟩
abbrev S_ : Shape := ⟨0, ![]⟩

class Facts : Prop where
  bcast_S_S4x32x256x512 : S_.BroadcastsInDim S4x32x256x512 (![] : Fin 0 → Fin S4x32x256x512.rank)
  reducesTo_S4x32x256x512_S_d0_1_2_3 : S4x32x256x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x8 : S_.BroadcastsInDim S2x8 (![] : Fin 0 → Fin S2x8.rank)
  reducesTo_S2x8_S_d0_1 : S2x8.ReducesTo [0, 1] S_
  bcast_S_S32x8 : S_.BroadcastsInDim S32x8 (![] : Fin 0 → Fin S32x8.rank)
  reducesTo_S32x8_S_d0_1 : S32x8.ReducesTo [0, 1] S_

variable [Facts]

def fn_part3 {F : FTy → Type} [FloatOps F] (main_arg11 : FVec F S2x8 .f32) (main_arg12 : FVec F S32x8 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S2x8 .f32 := Host.absf main_arg11
  let main_cst_20 : FVec F S_ .f32 := constant S_ .f32 0x7F800000#32
  let main_v55 : FVec F S2x8 .f32 := broadcastInDim S2x8 ![] bcast_S_S2x8 main_cst_20
  let main_v56 : IVec S2x8 1 := cmpf .olt main_v54 main_v55
  let main_c_21 : IVec S_ 1 := constantI S_ 1 1#1
  let main_v57 : IVec S_ 1 := (fun x v => Host.reduce IntOp.andi x v reducesTo_S2x8_S_d0_1 h_S_) main_v56 main_c_21
  let main_v58 : IVec S_ 1 := andi main_v53 main_v57
  let main_v59 : FVec F S32x8 .f32 := Host.absf main_arg12
  let main_cst_22 : FVec F S_ .f32 := constant S_ .f32 0x7F800000#32
  let main_v60 : FVec F S32x8 .f32 := broadcastInDim S32x8 ![] bcast_S_S32x8 main_cst_22
  let main_v61 : IVec S32x8 1 := cmpf .olt main_v59 main_v60
  let main_c_23 : IVec S_ 1 := constantI S_ 1 1#1
  let main_v62 : IVec S_ 1 := (fun x v => Host.reduce IntOp.andi x v reducesTo_S32x8_S_d0_1 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S2x8 .f32) (main_arg12 : FVec F S32x8 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S2x8 .f32) (main_arg12 : FVec F S32x8 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x32x256x512 .f32) (main_arg1 : FVec F S4x32x256x512 .f32) (main_arg2 : FVec F S4x32x256x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S2x8 .f32) (main_arg12 : FVec F S32x8 .f32) : IVec S_ 1 :=
  let main_v0 : FVec F S4x32x256x512 .f32 := Host.absf main_arg0
  let main_cst : FVec F S_ .f32 := constant S_ .f32 0x7F800000#32
  let main_v1 : FVec F S4x32x256x512 .f32 := broadcastInDim S4x32x256x512 ![] bcast_S_S4x32x256x512 main_cst
  let main_v2 : IVec S4x32x256x512 1 := cmpf .olt main_v0 main_v1
  let main_c : IVec S_ 1 := constantI S_ 1 1#1
  let main_v3 : IVec S_ 1 := (fun x v => Host.reduce IntOp.andi x v reducesTo_S4x32x256x512_S_d0_1_2_3 h_S_) main_v2 main_c
  let main_v4 : FVec F S4x32x256x512 .f32 := Host.absf main_arg1
  let main_cst_0 : FVec F S_ .f32 := constant S_ .f32 0x7F800000#32
  let main_v5 : FVec F S4x32x256x512 .f32 := broadcastInDim S4x32x256x512 ![] bcast_S_S4x32x256x512 main_cst_0
  let main_v6 : IVec S4x32x256x512 1 := cmpf .olt main_v4 main_v5
  let main_c_1 : IVec S_ 1 := constantI S_ 1 1#1
  let main_v7 : IVec S_ 1 := (fun x v => Host.reduce IntOp.andi x v reducesTo_S4x32x256x512_S_d0_1_2_3 h_S_) main_v6 main_c_1
  let main_v8 : IVec S_ 1 := andi main_v3 main_v7
  let main_v9 : FVec F S4x32x256x512 .f32 := Host.absf main_arg2
  let main_cst_2 : FVec F S_ .f32 := constant S_ .f32 0x7F800000#32
  let main_v10 : FVec F S4x32x256x512 .f32 := broadcastInDim S4x32x256x512 ![] bcast_S_S4x32x256x512 main_cst_2
  let main_v11 : IVec S4x32x256x512 1 := cmpf .olt main_v9 main_v10
  let main_c_3 : IVec S_ 1 := constantI S_ 1 1#1
  let main_v12 : IVec S_ 1 := (fun x v => Host.reduce IntOp.andi x v reducesTo_S4x32x256x512_S_d0_1_2_3 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S4x32x256x512 : Shape := ⟨4, ![4, 32, 256, 512]⟩
abbrev S512x512 : Shape := ⟨2, ![512, 512]⟩
abbrev S512 : Shape := ⟨1, ![512]⟩
abbrev S2x8 : Shape := ⟨2, ![2, 8]⟩
abbrev S32x8 : Shape := ⟨2, ![32, 8]⟩
abbrev S1x1x256x512 : Shape := ⟨4, ![1, 1, 256, 512]⟩
abbrev S256x512 : Shape := ⟨2, ![256, 512]⟩
abbrev S1x512 : Shape := ⟨2, ![1, 512]⟩
abbrev S1x8 : Shape := ⟨2, ![1, 8]⟩
abbrev S8 : Shape := ⟨1, ![8]⟩
abbrev S256x64 : Shape := ⟨2, ![256, 64]⟩
abbrev S64x256 : Shape := ⟨2, ![64, 256]⟩
abbrev S256x256 : Shape := ⟨2, ![256, 256]⟩
abbrev S1x1 : Shape := ⟨2, ![1, 1]⟩
abbrev S1 : Shape := ⟨1, ![1]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x32x256x512, .f32⟩
  | .hbm, ⟨1, _⟩ => ⟨S4x32x256x512, .f32⟩
  | .hbm, ⟨2, _⟩ => ⟨S4x32x256x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S2x8, .f32⟩
  | .hbm, ⟨12, _⟩ => ⟨S32x8, .f32⟩
  | .hbm, ⟨13, _⟩ => ⟨S4x32x256x512, .f32⟩
  | .local _ .vmem, ⟨0, _⟩ => ⟨S1x1x256x512, .f32⟩
  | .local _ .vmem, ⟨1, _⟩ => ⟨S1x1x256x512, .f32⟩
  | .local _ .vmem, ⟨2, _⟩ => ⟨S1x1x256x512, .f32⟩
  | .local _ .vmem, ⟨3, _⟩ => ⟨S1x1x256x512, .f32⟩
  | .local _ .vmem, ⟨4, _⟩ => ⟨S1x1x256x512, .f32⟩
  | .local _ .vmem, ⟨5, _⟩ => ⟨S1x1x256x512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S2x8, .f32⟩
  | .local _ .vmem, ⟨15, _⟩ => ⟨S32x8, .f32⟩
  | .local _ .vmem, ⟨16, _⟩ => ⟨S1x1x256x512, .f32⟩
  | .local _ .vmem, ⟨17, _⟩ => ⟨S1x1x256x512, .f32⟩
  | _, _ => ⟨S4x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![4, 32], ![false, false]⟩

def k0_off1 (i : grid0.Coords) : Fin 2 → Nat :=
  let arg1 : BitVec 32 := BitVec.ofNat 32 (i 1).val
  let v33 : Index := Scalar.indexCast arg1
  let c0_27 : Index := 0#32
  ![v33.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  inb_S1x1x256x512_S1x1x256x512_0_0_0_0 : ∀ a, (![0, 0, 0, 0] : Fin 4 → Nat) a + S1x1x256x512.size a ≤ S1x1x256x512.size a
  h_S1x1x256x512 : 0 < S1x1x256x512.numel
  shapeCasts_S1x1x256x512_S256x512 : S1x1x256x512.ShapeCasts S256x512
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  bitsLt_bf16_f32 : FTy.bits .bf16 < FTy.bits .f32
  shapeCasts_S512_S1x512 : S512.ShapeCasts S1x512
  broadcasts_S1x512_S256x512 : S1x512.Broadcasts S256x512
  inb_S2x8_S2x8_0_0 : ∀ a, (![0, 0] : Fin 2 → Nat) a + S2x8.size a ≤ S2x8.size a
  h_S2x8 : 0 < S2x8.numel
  h_S1x8 : 0 < S1x8.numel
  shapeCasts_S1x8_S8 : S1x8.ShapeCasts S8
  slices_S256x512_o0_0_S256x64 : S256x512.Slices ![0, 0] S256x64
  transposes_S256x64_p1_0_S64x256 : S256x64.Transposes [1, 0] S64x256
  slices_S2x8_o0_0_S1x1 : S2x8.Slices ![0, 0] S1x1
  inpos_S1x1_p0_0 : ∀ a, (![0, 0] : Fin 2 → Nat) a < S1x1.size a
  slices_S2x8_o1_0_S1x1 : S2x8.Slices ![1, 0] S1x1
  slices_S8_o0_S1 : S8.Slices ![0] S1
  inpos_S1_p0 : ∀ a, (![0] : Fin 1 → Nat) a < S1.size a
  reduces_S256x256_S256 : S256x256.Reduces [1] S256
  shapeCasts_S256_S256x1 : S256.ShapeCasts S256x1
  broadcasts_S256x1_S256x256 : S256x1.Broadcasts S256x256
  slices_S256x512_o0_64_S256x64 : S256x512.Slices ![0, 64] S256x64
  slices_S2x8_o0_1_S1x1 : S2x8.Slices ![0, 1] S1x1
  slices_S2x8_o1_1_S1x1 : S2x8.Slices ![1, 1] S1x1
  slices_S8_o1_S1 : S8.Slices ![1] S1
  slices_S256x512_o0_128_S256x64 : S256x512.Slices ![0, 128] S256x64
  slices_S2x8_o0_2_S1x1 : S2x8.Slices ![0, 2] S1x1
  slices_S2x8_o1_2_S1x1 : S2x8.Slices ![1, 2] S1x1
  slices_S8_o2_S1 : S8.Slices ![2] S1
  slices_S256x512_o0_192_S256x64 : S256x512.Slices ![0, 192] S256x64
  slices_S2x8_o0_3_S1x1 : S2x8.Slices ![0, 3] S1x1
  slices_S2x8_o1_3_S1x1 : S2x8.Slices ![1, 3] S1x1
  slices_S8_o3_S1 : S8.Slices ![3] S1
  slices_S256x512_o0_256_S256x64 : S256x512.Slices ![0, 256] S256x64
  slices_S2x8_o0_4_S1x1 : S2x8.Slices ![0, 4] S1x1
  slices_S2x8_o1_4_S1x1 : S2x8.Slices ![1, 4] S1x1
  slices_S8_o4_S1 : S8.Slices ![4] S1
  slices_S256x512_o0_320_S256x64 : S256x512.Slices ![0, 320] S256x64
  slices_S2x8_o0_5_S1x1 : S2x8.Slices ![0, 5] S1x1
  slices_S2x8_o1_5_S1x1 : S2x8.Slices ![1, 5] S1x1
  slices_S8_o5_S1 : S8.Slices ![5] S1
  slices_S256x512_o0_384_S256x64 : S256x512.Slices ![0, 384] S256x64
  slices_S2x8_o0_6_S1x1 : S2x8.Slices ![0, 6] S1x1
  slices_S2x8_o1_6_S1x1 : S2x8.Slices ![1, 6] S1x1
  slices_S8_o6_S1 : S8.Slices ![6] S1
  slices_S256x512_o0_448_S256x64 : S256x512.Slices ![0, 448] S256x64
  slices_S2x8_o0_7_S1x1 : S2x8.Slices ![0, 7] S1x1
  slices_S2x8_o1_7_S1x1 : S2x8.Slices ![1, 7] S1x1
  slices_S8_o7_S1 : S8.Slices ![7] S1
  concatenates_S256x64_S256x64_S256x64_S256x64_S256x64_S256x64_S256x64_S256x64_S256x512_d1 : Shape.Concatenates [S256x64, S256x64, S256x64, S256x64, S256x64, S256x64, S256x64, S256x64] S256x512 1
  shapeCasts_S256x512_S1x1x256x512 : S256x512.ShapeCasts S1x1x256x512
  dot_S256x512_S512x512_S256x512_1_0_0_1_n_n_wf : DotDims.WF S256x512 S512x512 S256x512 [1] [0] [0] [1] [] []
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  k0_off1_inb : ∀ i : grid0.Coords, ∀ a, (k0_off1 i) a + S1x8.size a ≤ S32x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x512.size a ≤ S4x32x256x512.size a
  hwx0_0 : ∀ i : grid0.Coords, EltTy.bits .f32 = 32 ∨ (Rect.block (s := S4x32x256x512) S1x1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x512.size a ≤ S4x32x256x512.size a
  hwx0_1 : ∀ i : grid0.Coords, EltTy.bits .f32 = 32 ∨ (Rect.block (s := S4x32x256x512) S1x1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x512.size a ≤ S4x32x256x512.size a
  hwx0_2 : ∀ i : grid0.Coords, EltTy.bits .f32 = 32 ∨ (Rect.block (s := S4x32x256x512) S1x1x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x8.size a ≤ S2x8.size a
  hwx0_11 : ∀ i : grid0.Coords, EltTy.bits .f32 = 32 ∨ (Rect.block (s := S2x8) S2x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x8.size a ≤ S32x8.size a
  hwx0_12 : ∀ i : grid0.Coords, EltTy.bits .f32 = 32 ∨ (Rect.block (s := S32x8) S32x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x256x512.size a ≤ S4x32x256x512.size a
  hwx0_13 : ∀ i : grid0.Coords, EltTy.bits .f32 = 32 ∨ (Rect.block (s := S4x32x256x512) S1x1x256x512.size (cc0_transform_13 i) (hinb0_13 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S1x1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1x1x256x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x32x256x512 : Shape := ⟨4, ![4, 32, 256, 512]⟩
abbrev S512x512 : Shape := ⟨2, ![512, 512]⟩
abbrev S512 : Shape := ⟨1, ![512]⟩
abbrev S2x8 : Shape := ⟨2, ![2, 8]⟩
abbrev S32x8 : Shape := ⟨2, ![32, 8]⟩
abbrev S1x1x1x512 : Shape := ⟨4, ![1, 1, 1, 512]⟩
abbrev S4x32x256x8x64 : Shape := ⟨5, ![4, 32, 256, 8, 64]⟩
abbrev S4x32x8x256x64 : Shape := ⟨5, ![4, 32, 8, 256, 64]⟩
abbrev S4x32x8x256x256 : Shape := ⟨5, ![4, 32, 8, 256, 256]⟩
abbrev S_ : Shape := ⟨0, ![]⟩
abbrev S1x8 : Shape := ⟨2, ![1, 8]⟩
abbrev S8 : Shape := ⟨1, ![8]⟩
abbrev S1x1x8x1x1 : Shape := ⟨5, ![1, 1, 8, 1, 1]⟩
abbrev S1x32x8x1x1 : Shape := ⟨5, ![1, 32, 8, 1, 1]⟩
abbrev S4x32x8x256 : Shape := ⟨4, ![4, 32, 8, 256]⟩
abbrev S4x32x8x256x1 : Shape := ⟨5, ![4, 32, 8, 256, 1]⟩

abbrev nBuf : Space → Nat
  | .hbm => 77
  | .vmem => 0
  | .smem => 0
  | _ => 0

abbrev bufTy : (tb : Table) → Fin (tcTables nBuf tb) → BufTy
  | .hbm, ⟨0, _⟩ => ⟨S4x32x256x512, .f32⟩
  | .hbm, ⟨1, _⟩ => ⟨S4x32x256x512, .f32⟩
  | .hbm, ⟨2, _⟩ => ⟨S4x32x256x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S2x8, .f32⟩
  | .hbm, ⟨12, _⟩ => ⟨S32x8, .f32⟩
  | .hbm, ⟨13, _⟩ => ⟨S4x32x256x512, .f32⟩
  | .hbm, ⟨14, _⟩ => ⟨S1x1x1x512, .f32⟩
  | .hbm, ⟨15, _⟩ => ⟨S4x32x256x512, .f32⟩
  | .hbm, ⟨16, _⟩ => ⟨S4x32x256x512, .f32⟩
  | .hbm, ⟨17, _⟩ => ⟨S4x32x256x8x64, .f32⟩
  | .hbm, ⟨18, _⟩ => ⟨S4x32x8x256x64, .f32⟩
  | .hbm, ⟨19, _⟩ => ⟨S4x32x256x512, .f32⟩
  | .hbm, ⟨20, _⟩ => ⟨S1x1x1x512, .f32⟩
  | .hbm, ⟨21, _⟩ => ⟨S4x32x256x512, .f32⟩
  | .hbm, ⟨22, _⟩ => ⟨S4x32x256x512, .f32⟩
  | .hbm, ⟨23, _⟩ => ⟨S4x32x256x8x64, .f32⟩
  | .hbm, ⟨24, _⟩ => ⟨S4x32x8x256x64, .f32⟩
  | .hbm, ⟨25, _⟩ => ⟨S4x32x256x512, .f32⟩
  | .hbm, ⟨26, _⟩ => ⟨S1x1x1x512, .f32⟩
  | .hbm, ⟨27, _⟩ => ⟨S4x32x256x512, .f32⟩
  | .hbm, ⟨28, _⟩ => ⟨S4x32x256x512, .f32⟩
  | .hbm, ⟨29, _⟩ => ⟨S4x32x256x8x64, .f32⟩
  | .hbm, ⟨30, _⟩ => ⟨S4x32x8x256x64, .f32⟩
  | .hbm, ⟨31, _⟩ => ⟨S4x32x8x256x256, .f32⟩
  | .hbm, ⟨32, _⟩ => ⟨S_, .f32⟩
  | .hbm, ⟨33, _⟩ => ⟨S4x32x8x256x256, .f32⟩
  | .hbm, ⟨34, _⟩ => ⟨S4x32x8x256x256, .f32⟩
  | .hbm, ⟨35, _⟩ => ⟨S1x8, .f32⟩
  | .hbm, ⟨36, _⟩ => ⟨S8, .f32⟩
  | .hbm, ⟨37, _⟩ => ⟨S1x8, .f32⟩
  | .hbm, ⟨38, _⟩ => ⟨S8, .f32⟩
  | .hbm, ⟨39, _⟩ => ⟨S8, .f32⟩
  | .hbm, ⟨40, _⟩ => ⟨S1x1x8x1x1, .f32⟩
  | .hbm, ⟨41, _⟩ => ⟨S4x32x8x256x256, .f32⟩
  | .hbm, ⟨42, _⟩ => ⟨S4x32x8x256x256, .f32⟩
  | .hbm, ⟨43, _⟩ => ⟨S1x32x8x1x1, .f32⟩
  | .hbm, ⟨44, _⟩ => ⟨S4x32x8x256x256, .f32⟩
  | .hbm, ⟨45, _⟩ => ⟨S4x32x8x256x256, .f32⟩
  | .hbm, ⟨46, _⟩ => ⟨S_, .f32⟩
  | .hbm, ⟨47, _⟩ => ⟨S4x32x8x256, .f32⟩
  | .hbm, ⟨48, _⟩ => ⟨S4x32x8x256x1, .f32⟩
  | .hbm, ⟨49, _⟩ => ⟨S4x32x8x256x256, .f32⟩
  | .hbm, ⟨50, _⟩ => ⟨S4x32x8x256x256, .f32⟩
  | .hbm, ⟨51, _⟩ => ⟨S_, .f32⟩
  | .hbm, ⟨52, _⟩ => ⟨S4x32x8x256x256, .f32⟩
  | .hbm, ⟨53, _⟩ => ⟨S4x32x8x256x256, .f32⟩
  | .hbm, ⟨54, _⟩ => ⟨S4x32x8x256x256, .f32⟩
  | .hbm, ⟨55, _⟩ => ⟨S4x32x8x256x256, .f32⟩
  | .hbm, ⟨56, _⟩ => ⟨S_, .f32⟩
  | .hbm, ⟨57, _⟩ => ⟨S4x32x8x256x256, .f32⟩
  | .hbm, ⟨58, _⟩ => ⟨S4x32x8x256x256, .f32⟩
  | .hbm, ⟨59, _⟩ => ⟨S_, .f32⟩
  | .hbm, ⟨60, _⟩ => ⟨S4x32x8x256x256, .f32⟩
  | .hbm, ⟨61, _⟩ => ⟨S4x32x8x256x256, .f32⟩
  | .hbm, ⟨62, _⟩ => ⟨S_, .f32⟩
  | .hbm, ⟨63, _⟩ => ⟨S4x32x8x256, .f32⟩
  | .hbm, ⟨64, _⟩ => ⟨S4x32x8x256x1, .f32⟩
  | .hbm, ⟨65, _⟩ => ⟨S_, .f32⟩
  | .hbm, ⟨66, _⟩ => ⟨S4x32x8x256x1, .f32⟩
  | .hbm, ⟨67, _⟩ => ⟨S4x32x8x256x1, .f32⟩
  | .hbm, ⟨68, _⟩ => ⟨S4x32x8x256x256, .f32⟩
  | .hbm, ⟨69, _⟩ => ⟨S4x32x8x256x256, .f32⟩
  | .hbm, ⟨70, _⟩ => ⟨S4x32x8x256x64, .f32⟩
  | .hbm, ⟨71, _⟩ => ⟨S4x32x256x8x64, .f32⟩
  | .hbm, ⟨72, _⟩ => ⟨S4x32x256x512, .f32⟩
  | .hbm, ⟨73, _⟩ => ⟨S4x32x256x512, .f32⟩
  | .hbm, ⟨74, _⟩ => ⟨S1x1x1x512, .f32⟩
  | .hbm, ⟨75, _⟩ => ⟨S4x32x256x512, .f32⟩
  | .hbm, ⟨76, _⟩ => ⟨S4x32x256x512, .f32⟩
  | _, _ => ⟨S4x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x32x256x512_0_1_2_3 : S1x1x1x512.BroadcastsInDim S4x32x256x512 (![0, 1, 2, 3] : Fin 4 → Fin S4x32x256x512.rank)
  shapeCasts_S4x32x256x512_S4x32x256x8x64 : S4x32x256x512.ShapeCasts S4x32x256x8x64
  transposes_S4x32x256x8x64_S4x32x8x256x64_0_1_3_2_4 : S4x32x256x8x64.Transposes [0, 1, 3, 2, 4] S4x32x8x256x64
  bcast_S_S4x32x8x256x256 : S_.BroadcastsInDim S4x32x8x256x256 (![] : Fin 0 → Fin S4x32x8x256x256.rank)
  slices_S2x8_S1x8_0_0 : S2x8.Slices ![0, 0] S1x8
  shapeCasts_S1x8_S8 : S1x8.ShapeCasts S8
  slices_S2x8_S1x8_1_0 : S2x8.Slices ![1, 0] S1x8
  shapeCasts_S8_S1x1x8x1x1 : S8.ShapeCasts S1x1x8x1x1
  bcast_S1x1x8x1x1_S4x32x8x256x256_0_1_2_3_4 : S1x1x8x1x1.BroadcastsInDim S4x32x8x256x256 (![0, 1, 2, 3, 4] : Fin 5 → Fin S4x32x8x256x256.rank)
  shapeCasts_S32x8_S1x32x8x1x1 : S32x8.ShapeCasts S1x32x8x1x1
  bcast_S1x32x8x1x1_S4x32x8x256x256_0_1_2_3_4 : S1x32x8x1x1.BroadcastsInDim S4x32x8x256x256 (![0, 1, 2, 3, 4] : Fin 5 → Fin S4x32x8x256x256.rank)
  reducesTo_S4x32x8x256x256_S4x32x8x256_d4 : S4x32x8x256x256.ReducesTo [4] S4x32x8x256
  h_S_ : 0 < S_.numel
  bcast_S4x32x8x256_S4x32x8x256x1_0_1_2_3 : S4x32x8x256.BroadcastsInDim S4x32x8x256x1 (![0, 1, 2, 3] : Fin 4 → Fin S4x32x8x256x1.rank)
  bcast_S4x32x8x256x1_S4x32x8x256x256_0_1_2_3_4 : S4x32x8x256x1.BroadcastsInDim S4x32x8x256x256 (![0, 1, 2, 3, 4] : Fin 5 → Fin S4x32x8x256x256.rank)
  bcast_S_S4x32x8x256x1 : S_.BroadcastsInDim S4x32x8x256x1 (![] : Fin 0 → Fin S4x32x8x256x1.rank)
  transposes_S4x32x8x256x64_S4x32x256x8x64_0_1_3_2_4 : S4x32x8x256x64.Transposes [0, 1, 3, 2, 4] S4x32x256x8x64
  shapeCasts_S4x32x256x8x64_S4x32x256x512 : S4x32x256x8x64.ShapeCasts S4x32x256x512
  dot_S4x32x256x512_S512x512_S4x32x256x512_3_0_012_1_n_n_wf : DotDims.WF S4x32x256x512 S512x512 S4x32x256x512 [3] [0] [0, 1, 2] [1] [] []
  dot_S4x32x8x256x64_S4x32x8x256x64_S4x32x8x256x256_4_4_3_3_012_012_wf : DotDims.WF S4x32x8x256x64 S4x32x8x256x64 S4x32x8x256x256 [4] [4] [3] [3] [0, 1, 2] [0, 1, 2]
  dot_S4x32x8x256x256_S4x32x8x256x64_S4x32x8x256x64_4_3_3_4_012_012_wf : DotDims.WF S4x32x8x256x256 S4x32x8x256x64 S4x32x8x256x64 [4] [3] [3] [4] [0, 1, 2] [0, 1, 2]

variable [Facts₀]

def dot_S4x32x256x512_S512x512_S4x32x256x512_3_0_012_1_n_n : DotDims S4x32x256x512 S512x512 S4x32x256x512 where
  lhsContracting := [3]
  rhsContracting := [0]
  lhsNonContracting := [0, 1, 2]
  rhsNonContracting := [1]
  lhsBatch := []
  rhsBatch := []
  wf := dot_S4x32x256x512_S512x512_S4x32x256x512_3_0_012_1_n_n_wf
def dot_S4x32x8x256x64_S4x32x8x256x64_S4x32x8x256x256_4_4_3_3_012_012 : DotDims S4x32x8x256x64 S4x32x8x256x64 S4x32x8x256x256 where
  lhsContracting := [4]
  rhsContracting := [4]
  lhsNonContracting := [3]
  rhsNonContracting := [3]
  lhsBatch := [0, 1, 2]
  rhsBatch := [0, 1, 2]
  wf := dot_S4x32x8x256x64_S4x32x8x256x64_S4x32x8x256x256_4_4_3_3_012_012_wf
def dot_S4x32x8x256x256_S4x32x8x256x64_S4x32x8x256x64_4_3_3_4_012_012 : DotDims S4x32x8x256x256 S4x32x8x256x64 S4x32x8x256x64 where
  lhsContracting := [4]
  rhsContracting := [3]
  lhsNonContracting := [3]
  rhsNonContracting := [4]
  lhsBatch := [0, 1, 2]
  rhsBatch := [0, 1, 2]
  wf := dot_S4x32x8x256x256_S4x32x8x256x64_S4x32x8x256x64_4_3_3_4_012_012_wf

class Facts : Prop extends Facts₀ where

variable [Facts]
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«109024_j14929306321753_1_alg».proof.Proof.LibDotIdx
import proofs.«109024_j14929306321753_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibCols.lean ====
/-
  Rank-2 arrays read at `(p, q)` through three layout operations, generic in the extents: a slice of consecutive
  columns, a transpose, and one row laid down every row.
-/
import Idealize.ShloMosaic.Lib.ValueIdx
import Idealize.ShloMosaic.Lib.Pipeline.Value

noncomputable section

namespace Cert.LibCols

open Idealize.ShloMosaic Idealize.ShloMosaic.ValueIdx

/-- A slice of `w` columns starting at column `o`: at `(r, k)` it is the operand at `(r, o + k)`. -/
theorem slice_cols {α : Type} {N C w : Nat} (o : Nat) (x : (⟨2, ![N, C]⟩ : Shape).Idx → α)
    (h : (⟨2, ![N, C]⟩ : Shape).Slices ![0, o] ⟨2, ![N, w]⟩) (r : Fin N) (k : Fin w) (c : Fin C) (hc : c.val = o + k.val) :
    extractStridedSlice ⟨2, ![N, w]⟩ ![0, o] x h (ix2 r k) = x (ix2 r c) :=
  extractStridedSlice_apply ![0, o] x h (ix2 r k) (ix2 r c) (fun a => match a with
    | ⟨0, _⟩ => by show r.val = 0 + r.val; omega
    | ⟨1, _⟩ => hc)

/-- The transpose of an `[a, b]` array at `(j, i)` is the operand at `(i, j)`. -/
theorem transpose2_apply {α : Type} {a b : Nat} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) (fun bb => match bb with
    | ⟨0, _⟩ => rfl
    | ⟨1, _⟩ => rfl)

/-- One row laid down `m` rows: at `(p, q)` it is the row's entry `q`. -/
theorem bcastRow_apply {α : Type} {m n : Nat} (y : (⟨2, ![1, n]⟩ : Shape).Idx → α)
    (hb : (⟨2, ![1, n]⟩ : Shape).Broadcasts ⟨2, ![m, n]⟩) (p : Fin m) (q : Fin n) :
    broadcastTo ⟨2, ![m, n]⟩ y hb (ix2 p q) = y (ix2 (0 : Fin 1) q) :=
  broadcastTo_apply y hb (ix2 p q) (ix2 (0 : Fin 1) q) (by
    intro a
    match a with
    | ⟨0, _⟩ => rfl
    | ⟨1, _⟩ =>
      show q.val = if n = 1 then 0 else q.val
      split
      · have e : q.val < n := q.isLt; omega
      · rfl)

end Cert.LibCols

end
-- ==== Proof.Spec.lean ====
/-
  Multi-head attention with a sigmoid weighting, one (batch, time) slice at a time, on the extended reals.

  A slice has 256 positions and 512 features, the features cut into 8 heads of 64.  From three projected
  slices `Q`, `K`, `V` (each `x · W + b`), a per-head scale `mw h` and a per-head shift `ts h`:

    score h q k   = ((Σ_d Q q (64h+d) · K k (64h+d)) · (1/8)) · mw h + ts h
    top h q       = the largest score of row q of head h (a fold of max from minus infinity)
    weight h q k  = logistic ((score h q k − top h q) · 5)
    total h q     = (Σ_k weight h q k) + ε
    mixed q (64h+d) = Σ_k (weight h q k / total h q) · V k (64h+d)
    out q f       = (Σ_e mixed q e · Wo e f) + bo f

  Every step is spelt with the operations' own extended-real meaning (the quotient is the one that sends
  a zero divisor to zero), so nothing here needs the inputs to be finite.  The one law used between the
  two programs is that dividing by 8 is multiplying by 1/8, which holds at the infinities too.
-/
import Idealize.ShloMosaic.PureOps.Ideal
import Idealize.ShloMosaic.Lib.ValueIdx

noncomputable section

namespace Cert.SpikeAttn

open Idealize.ShloMosaic

/-! ## The literals -/

/-- The word `0x41000000` is 8. -/
theorem word_eight : Ideal.ofBits .f32 0x41000000#32 = ((8 : ℝ) : EReal) := by
  simp [Ideal.ofBits, Ideal.ieee, -EReal.coe_mul]; norm_num

/-- The word `0x3E000000` is 1/8. -/
theorem word_eighth : Ideal.ofBits .f32 0x3E000000#32 = ((1 / 8 : ℝ) : EReal) := by
  simp [Ideal.ofBits, Ideal.ieee, -EReal.coe_mul]; norm_num

/-- The word `0x3F800000` is 1. -/
theorem word_one : Ideal.ofBits .f32 0x3F800000#32 = 1 := by
  simp [Ideal.ofBits, Ideal.ieee, -EReal.coe_mul]; norm_num

/-- The word `0x00000000` is 0. -/
theorem word_zero : Ideal.ofBits .f32 0x00000000#32 = 0 := by
  simp [Ideal.ofBits, Ideal.ieee]

/-- Dividing by 8 is multiplying by 1/8, on every extended real. -/
theorem div_eight (x : EReal) :
    Ideal.div x (Ideal.ofBits .f32 0x41000000#32) = x * Ideal.ofBits .f32 0x3E000000#32 := by
  rw [word_eight, word_eighth, Ideal.div_coe (by norm_num : (8 : ℝ) ≠ 0)]

/-- The logistic function spelt out with the words for 1: `1 / (1 + e^(-x))`. -/
theorem logistic_spelt (x : EReal) :
    Ideal.div (Ideal.ofBits .f32 0x3F800000#32) (Ideal.ofBits .f32 0x3F800000#32 + Ideal.exp (-x))
      = Ideal.logistic x := by
  rw [word_one]; rfl

/-! ## The slice's function -/

/-- Feature `64 h + d`: coordinate `d` of head `h`. -/
def col (h : Fin 8) (d : Fin 64) : Fin 512 := ⟨64 * h.val + d.val, by omega⟩

/-- A dense layer on a slice: `x · W + b` at `(s, f)`. -/
def lin (x : Fin 256 → Fin 512 → EReal) (W : Fin 512 → Fin 512 → EReal) (b : Fin 512 → EReal)
    (s : Fin 256) (f : Fin 512) : EReal :=
  (∑ e : Fin 512, x s e * W e f) + b f

section
variable (Q K V : Fin 256 → Fin 512 → EReal) (mw ts : Fin 8 → EReal)

/-- The scaled, weighted and shifted score of query `q` against key `k` in head `h`. -/
def score (h : Fin 8) (q k : Fin 256) : EReal :=
  (∑ d : Fin 64, Q q (col h d) * K k (col h d)) * Ideal.ofBits .f32 0x3E000000#32 * mw h + ts h

/-- The largest score of a row. -/
def top (h : Fin 8) (q : Fin 256) : EReal :=
  (Finset.univ : Finset (Fin 256)).fold max (Ideal.ofBits .f32 0xFF800000#32) (fun k => score Q K mw ts h q k)

/-- The sigmoid weight of key `k` for query `q`. -/
def weight (h : Fin 8) (q k : Fin 256) : EReal :=
  Ideal.logistic ((score Q K mw ts h q k - top Q K mw ts h q) * Ideal.ofBits .f32 0x40A00000#32)

/-- The row's normaliser. -/
def total (h : Fin 8) (q : Fin 256) : EReal :=
  (∑ k : Fin 256, weight Q K mw ts h q k) + Ideal.ofBits .f32 0x322BCC77#32

/-- The normalised weights applied to the values: feature `64 h + d` of position `q`. -/
def mixed (q : Fin 256) (h : Fin 8) (d : Fin 64) : EReal :=
  ∑ k : Fin 256, Ideal.div (weight Q K mw ts h q k) (total Q K mw ts h q) * V k (col h d)

/-- The mixed slice by feature: feature `e` belongs to head `e / 64`, coordinate `e % 64`. -/
def mixedRow (q : Fin 256) (e : Fin 512) : EReal :=
  mixed Q K V mw ts q ⟨e.val / 64, by omega⟩ ⟨e.val % 64, by omega⟩

end

/-- The whole slice: the three projections, the attention, the output layer. -/
def slice (xq xk xv : Fin 256 → Fin 512 → EReal) (Wq Wk Wv Wo : Fin 512 → Fin 512 → EReal)
    (bq bk bv bo : Fin 512 → EReal) (mw ts : Fin 8 → EReal) (s : Fin 256) (f : Fin 512) : EReal :=
  lin (mixedRow (lin xq Wq bq) (lin xk Wk bk) (lin xv Wv bv) mw ts) Wo bo s f

/-! ## The whole batch -/

open Idealize.ShloMosaic.ValueIdx in
/-- Slice `(b, t)` of a `[4, 32, 256, 512]` array as a plain array. -/
def blk (x : (⟨4, ![4, 32, 256, 512]⟩ : Shape).Idx → EReal) (b : Fin 4) (t : Fin 32) : Fin 256 → Fin 512 → EReal :=
  fun s e => x (ix4 b t s e)
open Idealize.ShloMosaic.ValueIdx in
/-- A weight matrix as a plain array. -/
def mat (W : (⟨2, ![512, 512]⟩ : Shape).Idx → EReal) : Fin 512 → Fin 512 → EReal := fun e f => W (ix2 e f)
open Idealize.ShloMosaic.ValueIdx in
/-- A bias vector as a plain array. -/
def vec (v : (⟨1, ![512]⟩ : Shape).Idx → EReal) : Fin 512 → EReal := fun f => v (ix1 f)
open Idealize.ShloMosaic.ValueIdx in
/-- The per-head scale: the product of the two rows of the `[2, 8]` table. -/
def mwOf (x11 : (⟨2, ![2, 8]⟩ : Shape).Idx → EReal) : Fin 8 → EReal :=
  fun h => x11 (ix2 (0 : Fin 2) h) * x11 (ix2 (1 : Fin 2) h)
open Idealize.ShloMosaic.ValueIdx in
/-- The per-head shift at time `t`: row `t` of the `[32, 8]` table. -/
def tsOf (x12 : (⟨2, ![32, 8]⟩ : Shape).Idx → EReal) (t : Fin 32) : Fin 8 → EReal := fun h => x12 (ix2 t h)

/-- The result over the whole batch: at `(b, t, s, f)`, the slice's function of slice `(b, t)` of the three
    inputs, the four layers, the scales, and row `t` of the shifts. -/
def batch (x0 x1 x2 : (⟨4, ![4, 32, 256, 512]⟩ : Shape).Idx → EReal)
    (x3 : (⟨2, ![512, 512]⟩ : Shape).Idx → EReal) (x4 : (⟨1, ![512]⟩ : Shape).Idx → EReal)
    (x5 : (⟨2, ![512, 512]⟩ : Shape).Idx → EReal) (x6 : (⟨1, ![512]⟩ : Shape).Idx → EReal)
    (x7 : (⟨2, ![512, 512]⟩ : Shape).Idx → EReal) (x8 : (⟨1, ![512]⟩ : Shape).Idx → EReal)
    (x9 : (⟨2, ![512, 512]⟩ : Shape).Idx → EReal) (x10 : (⟨1, ![512]⟩ : Shape).Idx → EReal)
    (x11 : (⟨2, ![2, 8]⟩ : Shape).Idx → EReal) (x12 : (⟨2, ![32, 8]⟩ : Shape).Idx → EReal) :
    (⟨4, ![4, 32, 256, 512]⟩ : Shape).Idx → EReal := fun i =>
  slice (blk x0 (i 0) (i 1)) (blk x1 (i 0) (i 1)) (blk x2 (i 0) (i 1)) (mat x3) (mat x5) (mat x7) (mat x9)
    (vec x4) (vec x6) (vec x8) (vec x10) (mwOf x11) (tsOf x12 (i 1)) (i 2) (i 3)

end Cert.SpikeAttn

end
-- ==== Proof.HeadK.lean ====
/-
  One attention head of a slice, in the vector operations a kernel body spells it with, read at an index.

  From the head's 64 columns of the projected queries, keys and values (`Qh`, `Kh`, `Vh`, each 256 × 64), a scale
  and a shift: the 256 × 256 scores (queries against keys, contracted over the 64 columns, times 1/8, times the
  scale, plus the shift), each row's largest score laid along the row, the sigmoid weights of the differences
  times 5, each row's total plus ε, the quotient, and the product with the values.  At `(q, d)` the head is
  `Σ_k (weight q k / total q) · Vh k d`.
-/
import Idealize.ShloMosaic.Lib.ValueIdx
import Idealize.ShloMosaic.Lib.Pipeline.Value
import Idealize.ShloMosaic.PureOps.Ideal.Laws
import proofs.«109024_j14929306321753_1_alg».proof.Proof.LibDotIdx
import proofs.«109024_j14929306321753_1_alg».proof.Proof.LibKeepdims
import proofs.«109024_j14929306321753_1_alg».proof.Proof.LibRowOps
import proofs.«109024_j14929306321753_1_alg».proof.Proof.LibCols
import proofs.«109024_j14929306321753_1_alg».proof.Proof.Spec

noncomputable section

namespace Cert.SpikeAttn.Ker

open Idealize.ShloMosaic Idealize.ShloMosaic.ValueIdx

/-- A slice: 256 positions by 512 features. -/
abbrev Sx : Shape := ⟨2, ![256, 512]⟩
/-- One head's columns of a slice. -/
abbrev Sh : Shape := ⟨2, ![256, 64]⟩
/-- Those columns transposed. -/
abbrev Sht : Shape := ⟨2, ![64, 256]⟩
/-- Queries by keys. -/
abbrev Sqk : Shape := ⟨2, ![256, 256]⟩
/-- One number per query. -/
abbrev Sr : Shape := ⟨1, ![256]⟩
/-- The same as one column. -/
abbrev Sc : Shape := ⟨2, ![256, 1]⟩

section
variable (tr : Sh.Transposes [1, 0] Sht) (wqk : DotDims.WF Sh Sht Sqk [1] [0] [0] [1] [] [])
  (wav : DotDims.WF Sqk Sh Sh [1] [0] [0] [1] [] []) (red : Sqk.Reduces [1] Sr) (cst : Sr.ShapeCasts Sc)
  (bc : Sc.Broadcasts Sqk) (hb : FTy.bits .bf16 < FTy.bits .f32)

/-- The scores of one head: queries against keys over the head's columns, times 1/8, times the scale, plus the shift. -/
def scoresK (Qh Kh : FVec Ideal Sh .f32) (mwv tsv : Ideal .f32) : FVec Ideal Sqk .f32 :=
  addf (mulf (mulf (matmul (⟨[1], [0], [0], [1], [], [], wqk⟩ : DotDims Sh Sht Sqk) none (truncf .bf16 Qh hb)
      (transpose Sht [1, 0] (truncf .bf16 Kh hb) tr) (constant Sqk .f32 0x00000000#32))
    (broadcast Sqk (Scalar.ofBits .f32 0x3E000000#32))) (broadcast Sqk mwv)) (broadcast Sqk tsv)

/-- Each row's largest entry, laid along the row. -/
def rowTop (S : FVec Ideal Sqk .f32) : FVec Ideal Sqk .f32 :=
  broadcastTo Sqk (shapeCast Sc (multiReduction .maximumf [1] Sr S 0xFF800000#32 red (.inl rfl) rfl) cst) bc

/-- The sigmoid weights of the differences `S − T` times 5. -/
def weightsOf (S T : FVec Ideal Sqk .f32) : FVec Ideal Sqk .f32 :=
  logistic (mulf (subf S T) (broadcast Sqk (Scalar.ofBits .f32 0x40A00000#32)))

/-- Each row's total, as one column. -/
def rowSumCol (P : FVec Ideal Sqk .f32) : FVec Ideal Sc .f32 :=
  shapeCast Sc (multiReduction .add [1] Sr P 0x00000000#32 red (.inl rfl) rfl) cst

/-- The weights divided by their row's total plus ε, the total given as a column. -/
def normOf (P : FVec Ideal Sqk .f32) (T : FVec Ideal Sc .f32) : FVec Ideal Sqk .f32 :=
  divf P (broadcastTo Sqk (addf T (broadcast Sc (Scalar.ofBits .f32 0x322BCC77#32))) bc)

/-- The normalised weights applied to the head's values. -/
def mixK (A : FVec Ideal Sqk .f32) (Vh : FVec Ideal Sh .f32) : FVec Ideal Sh .f32 :=
  matmul (⟨[1], [0], [0], [1], [], [], wav⟩ : DotDims Sqk Sh Sh) none (truncf .bf16 A hb) (truncf .bf16 Vh hb)
    (constant Sh .f32 0x00000000#32)

/-- One head, whole. -/
def headK (Qh Kh Vh : FVec Ideal Sh .f32) (mwv tsv : Ideal .f32) : FVec Ideal Sh .f32 :=
  mixK wav hb
    (normOf bc (weightsOf (scoresK tr wqk hb Qh Kh mwv tsv) (rowTop red cst bc (scoresK tr wqk hb Qh Kh mwv tsv)))
      (rowSumCol red cst (weightsOf (scoresK tr wqk hb Qh Kh mwv tsv) (rowTop red cst bc (scoresK tr wqk hb Qh Kh mwv tsv)))))
    Vh

/-! ## Each step at an index -/

theorem scoresK_apply (Qh Kh : FVec Ideal Sh .f32) (mwv tsv : Ideal .f32) (q k : Fin 256) :
    scoresK tr wqk hb Qh Kh mwv tsv (ix2 q k)
      = (∑ d : Fin 64, Qh (ix2 q d) * Kh (ix2 k d)) * Ideal.ofBits .f32 0x3E000000#32 * mwv + tsv := by
  unfold scoresK
  rw [addf_apply, mulf_apply, mulf_apply, broadcast_apply, broadcast_apply, broadcast_apply,
    DotIdx.matmul_plain_zero_apply]
  refine congrArg (fun z => z * _ * mwv + tsv) (Finset.sum_congr rfl fun d _ => ?_)
  rw [Cert.LibCols.transpose2_apply]
  rfl

theorem rowTop_apply (S : FVec Ideal Sqk .f32) (q k : Fin 256) :
    rowTop red cst bc S (ix2 q k)
      = (Finset.univ : Finset (Fin 256)).fold max (Ideal.ofBits .f32 0xFF800000#32) (fun k' => S (ix2 q k')) := by
  unfold rowTop
  rw [Cert.LibRowOps.colVec_kernel_apply]
  exact Cert.LibRowOps.rowMax_kernel_apply S _ red _ _ q

theorem weightsOf_apply (S T : FVec Ideal Sqk .f32) (i : Sqk.Idx) :
    weightsOf S T i = Ideal.logistic ((S i - T i) * Ideal.ofBits .f32 0x40A00000#32) := rfl

theorem rowSumCol_apply (P : FVec Ideal Sqk .f32) (q : Fin 256) :
    rowSumCol red cst P (ix2 q (0 : Fin 1)) = ∑ k' : Fin 256, P (ix2 q k') := by
  unfold rowSumCol
  rw [Cert.SupCon.Ker.shapeCast_a_a1_apply]
  exact Cert.LibRowOps.rowSum_kernel_apply P _ red _ _ q

theorem normOf_apply (P : FVec Ideal Sqk .f32) (T : FVec Ideal Sc .f32) (q k : Fin 256) :
    normOf bc P T (ix2 q k)
      = Ideal.div (P (ix2 q k)) (T (ix2 q (0 : Fin 1)) + Ideal.ofBits .f32 0x322BCC77#32) := by
  unfold normOf
  rw [divf_apply, Cert.SupCon.Ker.broadcastTo_a1_ab_apply]
  rfl

theorem mixK_apply (A : FVec Ideal Sqk .f32) (Vh : FVec Ideal Sh .f32) (q : Fin 256) (d : Fin 64) :
    mixK wav hb A Vh (ix2 q d) = ∑ k : Fin 256, A (ix2 q k) * Vh (ix2 k d) := by
  unfold mixK
  rw [DotIdx.matmul_plain_zero_apply]
  rfl

/-- One head at `(q, d)`, from the head's columns of whole projected slices: the slice's function. -/
theorem headK_eq_mixed (o : Nat) (h : Fin 8) (ho : o = 64 * h.val) (hs : Sx.Slices ![0, o] Sh)
    (Qf Kf Vf : FVec Ideal Sx .f32) (mw ts : Fin 8 → EReal) (q : Fin 256) (d : Fin 64) :
    headK tr wqk wav red cst bc hb (extractStridedSlice Sh ![0, o] Qf hs) (extractStridedSlice Sh ![0, o] Kf hs)
        (extractStridedSlice Sh ![0, o] Vf hs) (mw h) (ts h) (ix2 q d)
      = Cert.SpikeAttn.mixed (fun s e => Qf (ix2 s e)) (fun s e => Kf (ix2 s e)) (fun s e => Vf (ix2 s e)) mw ts q h d := by
  have eQ : ∀ (s : Fin 256) (d : Fin 64), extractStridedSlice Sh ![0, o] Qf hs (ix2 s d) = Qf (ix2 s (Cert.SpikeAttn.col h d)) :=
    fun s d => Cert.LibCols.slice_cols o Qf hs s d (Cert.SpikeAttn.col h d) (by subst ho; rfl)
  have eK : ∀ (s : Fin 256) (d : Fin 64), extractStridedSlice Sh ![0, o] Kf hs (ix2 s d) = Kf (ix2 s (Cert.SpikeAttn.col h d)) :=
    fun s d => Cert.LibCols.slice_cols o Kf hs s d (Cert.SpikeAttn.col h d) (by subst ho; rfl)
  have eV : ∀ (s : Fin 256) (d : Fin 64), extractStridedSlice Sh ![0, o] Vf hs (ix2 s d) = Vf (ix2 s (Cert.SpikeAttn.col h d)) :=
    fun s d => Cert.LibCols.slice_cols o Vf hs s d (Cert.SpikeAttn.col h d) (by subst ho; rfl)
  unfold headK
  simp only [mixK_apply, normOf_apply, rowSumCol_apply, weightsOf_apply, rowTop_apply, scoresK_apply, eQ, eK, eV]
  rfl

end

end Cert.SpikeAttn.Ker

end
-- ==== Proof.BlockK.lean ====
/-
  One grid point's block of the kernel as ONE function of the blocks it loads, and that function at an index.

  The body projects the three loaded slices (`x · W + b`, the bias laid along the rows), runs the eight heads on
  their 64-column pieces of the projections, lays the eight results side by side, and applies the output layer.
  At `(s, f)` this is the slice's function of the loaded blocks read as plain arrays.
-/
import proofs.«109024_j14929306321753_1_alg».proof.Proof.Gen.KernelIdeal.Skeleton
import proofs.«109024_j14929306321753_1_alg».proof.Proof.HeadK

set_option maxRecDepth 16384

noncomputable section

namespace Cert.KernelIdeal.Blk

open Cert.KernelIdeal Cert.KernelIdeal.Gen Cert.SpikeAttn Cert.SpikeAttn.Ker Idealize.ShloMosaic Idealize.ShloMosaic.ValueIdx

/-- A dense layer on a block: `x · W` plus the bias laid along every row. -/
def denseK (x : FVec Ideal S256x512 .f32) (W : FVec Ideal S512x512 .f32) (b : FVec Ideal S512 .f32) : FVec Ideal S256x512 .f32 :=
  addf (matmul dot_S256x512_S512x512_S256x512_1_0_0_1_n_n none (truncf .bf16 x bitsLt_bf16_f32) (truncf .bf16 W bitsLt_bf16_f32)
      (constant S256x512 .f32 0x00000000#32))
    (broadcastTo S256x512 (shapeCast S1x512 b shapeCasts_S512_S1x512) broadcasts_S1x512_S256x512)

/-- The projection of a loaded slice (its two unit axes dropped). -/
def projK (x : FVec Ideal S1x1x256x512 .f32) (W : FVec Ideal S512x512 .f32) (b : FVec Ideal S512 .f32) : FVec Ideal S256x512 .f32 :=
  denseK (shapeCast S256x512 x shapeCasts_S1x1x256x512_S256x512) W b

/-- The head whose columns start at `o` and whose scale and shift sit at position `j`. -/
def headAt (o j : Nat) (hs : S256x512.Slices ![0, o] S256x64) (hm0 : S2x8.Slices ![0, j] S1x1) (hm1 : S2x8.Slices ![1, j] S1x1)
    (ht : S8.Slices ![j] S1) (Qf Kf Vf : FVec Ideal S256x512 .f32) (modw : FVec Ideal S2x8 .f32) (tsr : FVec Ideal S8 .f32) :
    FVec Ideal S256x64 .f32 :=
  headK transposes_S256x64_p1_0_S64x256 dot_S256x64_S64x256_S256x256_1_0_0_1_n_n.wf dot_S256x256_S256x64_S256x64_1_0_0_1_n_n.wf
    reduces_S256x256_S256 shapeCasts_S256_S256x1 broadcasts_S256x1_S256x256 bitsLt_bf16_f32
    (extractStridedSlice S256x64 ![0, o] Qf hs) (extractStridedSlice S256x64 ![0, o] Kf hs) (extractStridedSlice S256x64 ![0, o] Vf hs)
    (Scalar.mulf (extractAt ![0, 0] (extractStridedSlice S1x1 ![0, j] modw hm0) inpos_S1x1_p0_0)
      (extractAt ![0, 0] (extractStridedSlice S1x1 ![1, j] modw hm1) inpos_S1x1_p0_0))
    (extractAt ![0] (extractStridedSlice S1 ![j] tsr ht) inpos_S1_p0)

/-- The eight heads. -/
def hd (Qf Kf Vf : FVec Ideal S256x512 .f32) (modw : FVec Ideal S2x8 .f32) (tsr : FVec Ideal S8 .f32) : Fin 8 → FVec Ideal S256x64 .f32 :=
  ![headAt 0 0 slices_S256x512_o0_0_S256x64 slices_S2x8_o0_0_S1x1 slices_S2x8_o1_0_S1x1 slices_S8_o0_S1 Qf Kf Vf modw tsr,
    headAt 64 1 slices_S256x512_o0_64_S256x64 slices_S2x8_o0_1_S1x1 slices_S2x8_o1_1_S1x1 slices_S8_o1_S1 Qf Kf Vf modw tsr,
    headAt 128 2 slices_S256x512_o0_128_S256x64 slices_S2x8_o0_2_S1x1 slices_S2x8_o1_2_S1x1 slices_S8_o2_S1 Qf Kf Vf modw tsr,
    headAt 192 3 slices_S256x512_o0_192_S256x64 slices_S2x8_o0_3_S1x1 slices_S2x8_o1_3_S1x1 slices_S8_o3_S1 Qf Kf Vf modw tsr,
    headAt 256 4 slices_S256x512_o0_256_S256x64 slices_S2x8_o0_4_S1x1 slices_S2x8_o1_4_S1x1 slices_S8_o4_S1 Qf Kf Vf modw tsr,
    headAt 320 5 slices_S256x512_o0_320_S256x64 slices_S2x8_o0_5_S1x1 slices_S2x8_o1_5_S1x1 slices_S8_o5_S1 Qf Kf Vf modw tsr,
    headAt 384 6 slices_S256x512_o0_384_S256x64 slices_S2x8_o0_6_S1x1 slices_S2x8_o1_6_S1x1 slices_S8_o6_S1 Qf Kf Vf modw tsr,
    headAt 448 7 slices_S256x512_o0_448_S256x64 slices_S2x8_o0_7_S1x1 slices_S2x8_o1_7_S1x1 slices_S8_o7_S1 Qf Kf Vf modw tsr]

/-- The block: the projections, the eight heads side by side, the output layer. -/
def blockK (xq xk xv : FVec Ideal S1x1x256x512 .f32) (Wq : FVec Ideal S512x512 .f32) (bq : FVec Ideal S512 .f32)
    (Wk : FVec Ideal S512x512 .f32) (bk : FVec Ideal S512 .f32) (Wv : FVec Ideal S512x512 .f32) (bv : FVec Ideal S512 .f32)
    (Wo : FVec Ideal S512x512 .f32) (bo : FVec Ideal S512 .f32) (modw : FVec Ideal S2x8 .f32) (tsr : FVec Ideal S8 .f32) :
    FVec Ideal S256x512 .f32 :=
  denseK (concatenate S256x512 1
      (List.ofFn fun n : Fin 8 => (⟨S256x64, hd (projK xq Wq bq) (projK xk Wk bk) (projK xv Wv bv) modw tsr n⟩ : (s : Shape) × (s.Idx → Ideal .f32)))
      concatenates_S256x64_S256x64_S256x64_S256x64_S256x64_S256x64_S256x64_S256x64_S256x512_d1) Wo bo

/-! ## At an index -/

theorem denseK_apply (x : FVec Ideal S256x512 .f32) (W : FVec Ideal S512x512 .f32) (b : FVec Ideal S512 .f32) (s : Fin 256) (f : Fin 512) :
    denseK x W b (ix2 s f) = (∑ e : Fin 512, x (ix2 s e) * W (ix2 e f)) + b (ix1 f) := by
  unfold denseK
  rw [addf_apply, Cert.LibRowOps.rowVec_kernel_apply]
  refine congrArg (· + b (ix1 f)) ?_
  exact DotIdx.matmul_plain_zero_apply dot_S256x512_S512x512_S256x512_1_0_0_1_n_n.wf none _ _ s f

theorem drop_units_apply (x : FVec Ideal S1x1x256x512 .f32) (s : Fin 256) (e : Fin 512) :
    shapeCast S256x512 x shapeCasts_S1x1x256x512_S256x512 (ix2 s e) = x (ix4 (0 : Fin 1) (0 : Fin 1) s e) :=
  shapeCast_apply x shapeCasts_S1x1x256x512_S256x512 (ix2 s e) (ix4 (0 : Fin 1) (0 : Fin 1) s e) (by
    rw [Shape.rowMajor_val_four, Shape.rowMajor_val_two]
    show ((0 * 1 + 0) * 256 + s.val) * 512 + e.val = s.val * 512 + e.val
    omega)

theorem projK_eq_lin (x : FVec Ideal S1x1x256x512 .f32) (W : FVec Ideal S512x512 .f32) (b : FVec Ideal S512 .f32) :
    (fun s e => projK x W b (ix2 s e))
      = lin (fun s e => x (ix4 (0 : Fin 1) (0 : Fin 1) s e)) (fun e f => W (ix2 e f)) (fun f => b (ix1 f)) := by
  funext s f
  unfold projK lin
  rw [denseK_apply]
  simp only [drop_units_apply]

theorem headAt_apply (o j : Nat) (h : Fin 8) (ho : o = 64 * h.val) (hj : j = h.val) (hs : S256x512.Slices ![0, o] S256x64)
    (hm0 : S2x8.Slices ![0, j] S1x1) (hm1 : S2x8.Slices ![1, j] S1x1) (ht : S8.Slices ![j] S1)
    (Qf Kf Vf : FVec Ideal S256x512 .f32) (modw : FVec Ideal S2x8 .f32) (tsr : FVec Ideal S8 .f32) (q : Fin 256) (d : Fin 64) :
    headAt o j hs hm0 hm1 ht Qf Kf Vf modw tsr (ix2 q d)
      = mixed (fun s e => Qf (ix2 s e)) (fun s e => Kf (ix2 s e)) (fun s e => Vf (ix2 s e))
          (fun h' => modw (ix2 (0 : Fin 2) h') * modw (ix2 (1 : Fin 2) h')) (fun h' => tsr (ix1 h')) q h d := by
  subst hj
  have e0 : extractAt ![0, 0] (extractStridedSlice S1x1 ![0, h.val] modw hm0) inpos_S1x1_p0_0 = modw (ix2 (0 : Fin 2) h) :=
    congrArg modw (funext fun a => Fin.ext (by match a with | ⟨0, _⟩ => rfl | ⟨1, _⟩ => rfl))
  have e1 : extractAt ![0, 0] (extractStridedSlice S1x1 ![1, h.val] modw hm1) inpos_S1x1_p0_0 = modw (ix2 (1 : Fin 2) h) :=
    congrArg modw (funext fun a => Fin.ext (by match a with | ⟨0, _⟩ => rfl | ⟨1, _⟩ => rfl))
  have e2 : extractAt ![0] (extractStridedSlice S1 ![h.val] tsr ht) inpos_S1_p0 = tsr (ix1 h) :=
    congrArg tsr (funext fun a => Fin.ext (by match a with | ⟨0, _⟩ => rfl))
  unfold headAt
  rw [e0, e1, e2]
  exact headK_eq_mixed _ _ _ _ _ _ _ o h ho hs Qf Kf Vf
    (fun h' => modw (ix2 (0 : Fin 2) h') * modw (ix2 (1 : Fin 2) h')) (fun h' => tsr (ix1 h')) q d

theorem hd_apply (Qf Kf Vf : FVec Ideal S256x512 .f32) (modw : FVec Ideal S2x8 .f32) (tsr : FVec Ideal S8 .f32) (h : Fin 8)
    (q : Fin 256) (d : Fin 64) :
    hd Qf Kf Vf modw tsr h (ix2 q d)
      = mixed (fun s e => Qf (ix2 s e)) (fun s e => Kf (ix2 s e)) (fun s e => Vf (ix2 s e))
          (fun h' => modw (ix2 (0 : Fin 2) h') * modw (ix2 (1 : Fin 2) h')) (fun h' => tsr (ix1 h')) q h d := by
  fin_cases h
  · exact headAt_apply 0 0 (0 : Fin 8) rfl rfl _ _ _ _ Qf Kf Vf modw tsr q d
  · exact headAt_apply 64 1 (1 : Fin 8) rfl rfl _ _ _ _ Qf Kf Vf modw tsr q d
  · exact headAt_apply 128 2 (2 : Fin 8) rfl rfl _ _ _ _ Qf Kf Vf modw tsr q d
  · exact headAt_apply 192 3 (3 : Fin 8) rfl rfl _ _ _ _ Qf Kf Vf modw tsr q d
  · exact headAt_apply 256 4 (4 : Fin 8) rfl rfl _ _ _ _ Qf Kf Vf modw tsr q d
  · exact headAt_apply 320 5 (5 : Fin 8) rfl rfl _ _ _ _ Qf Kf Vf modw tsr q d
  · exact headAt_apply 384 6 (6 : Fin 8) rfl rfl _ _ _ _ Qf Kf Vf modw tsr q d
  · exact headAt_apply 448 7 (7 : Fin 8) rfl rfl _ _ _ _ Qf Kf Vf modw tsr q d

/-- The eight heads side by side, at `(s, e)`: head `e / 64` at coordinate `e % 64`. -/
theorem heads_apply (Qf Kf Vf : FVec Ideal S256x512 .f32) (modw : FVec Ideal S2x8 .f32) (tsr : FVec Ideal S8 .f32)
    (s : Fin 256) (e : Fin 512) :
    concatenate S256x512 1
        (List.ofFn fun n : Fin 8 => (⟨S256x64, hd Qf Kf Vf modw tsr n⟩ : (s : Shape) × (s.Idx → Ideal .f32)))
        concatenates_S256x64_S256x64_S256x64_S256x64_S256x64_S256x64_S256x64_S256x64_S256x512_d1 (ix2 s e)
      = mixedRow (fun s e => Qf (ix2 s e)) (fun s e => Kf (ix2 s e)) (fun s e => Vf (ix2 s e))
          (fun h' => modw (ix2 (0 : Fin 2) h') * modw (ix2 (1 : Fin 2) h')) (fun h' => tsr (ix1 h')) s e := by
  have hlt : e.val / 64 < 8 := by have := e.isLt; omega
  have hmod : e.val % 64 < 64 := Nat.mod_lt _ (by decide)
  refine (concatenate_ofFn_apply (t := S256x512) (s₁ := S256x64) (1 : Fin 2) (hd Qf Kf Vf modw tsr) _ rfl 64 rfl (ix2 s e) ⟨e.val / 64, hlt⟩ rfl
    (ix2 s ⟨e.val % 64, hmod⟩) rfl (fun b hb => by
      match b with
      | ⟨0, _⟩ => rfl
      | ⟨1, _⟩ => exact absurd rfl hb)).trans ?_
  exact hd_apply Qf Kf Vf modw tsr ⟨e.val / 64, hlt⟩ s ⟨e.val % 64, hmod⟩

/-- The block at `(s, f)` is the slice's function of the loaded blocks. -/
theorem blockK_apply (xq xk xv : FVec Ideal S1x1x256x512 .f32) (Wq : FVec Ideal S512x512 .f32) (bq : FVec Ideal S512 .f32)
    (Wk : FVec Ideal S512x512 .f32) (bk : FVec Ideal S512 .f32) (Wv : FVec Ideal S512x512 .f32) (bv : FVec Ideal S512 .f32)
    (Wo : FVec Ideal S512x512 .f32) (bo : FVec Ideal S512 .f32) (modw : FVec Ideal S2x8 .f32) (tsr : FVec Ideal S8 .f32)
    (s : Fin 256) (f : Fin 512) :
    blockK xq xk xv Wq bq Wk bk Wv bv Wo bo modw tsr (ix2 s f)
      = slice (fun s e => xq (ix4 (0 : Fin 1) (0 : Fin 1) s e)) (fun s e => xk (ix4 (0 : Fin 1) (0 : Fin 1) s e))
          (fun s e => xv (ix4 (0 : Fin 1) (0 : Fin 1) s e))
          (fun e f => Wq (ix2 e f)) (fun e f => Wk (ix2 e f)) (fun e f => Wv (ix2 e f)) (fun e f => Wo (ix2 e f))
          (fun f => bq (ix1 f)) (fun f => bk (ix1 f)) (fun f => bv (ix1 f)) (fun f => bo (ix1 f))
          (fun h' => modw (ix2 (0 : Fin 2) h') * modw (ix2 (1 : Fin 2) h')) (fun h' => tsr (ix1 h')) s f := by
  unfold blockK slice
  rw [denseK_apply]
  simp only [heads_apply, projK_eq_lin]
  rfl

end Cert.KernelIdeal.Blk

end
-- ==== Proof.KerPiece.lean ====
/-
  What the kernel's body leaves in the output's staging buffer at a grid point, as one function of the blocks it
  loaded: the block function of the three slices, the four layers, the scales, and the row of the shift table that
  the point's time coordinate selects.
-/
import proofs.«109024_j14929306321753_1_alg».proof.Proof.Gen.KernelIdeal.Frame
import proofs.«109024_j14929306321753_1_alg».proof.Proof.BlockK

set_option maxRecDepth 16384

noncomputable section

namespace Cert.KernelIdeal.Blk

open Cert.KernelIdeal Cert.KernelIdeal.Gen Cert.SpikeAttn Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The row of the shift table the body loads at a grid point, as a vector of eight. -/
def rowAt (i : grid0.Coords) (x12 : Vec Ideal S32x8 .f32) : FVec Ideal S8 .f32 :=
  shapeCast S8 (View.ld x12 (Rect.unit (s := S32x8) (k0_off1 i) S1x8.size (k0_off1_inb i))) shapeCasts_S1x8_S8

/-- It is row `t` of the table, `t` the point's time coordinate. -/
theorem rowAt_apply (i : grid0.Coords) (x12 : Vec Ideal S32x8 .f32) (t : Fin 32) (ht : (i 1).val = t.val) (h : Fin 8) :
    rowAt i x12 (ix1 h) = x12 (ix2 t h) := by
  unfold rowAt
  refine (shapeCast_apply _ shapeCasts_S1x8_S8 (ix1 h) (ix2 (0 : Fin 1) h) (by
    rw [Shape.rowMajor_val_two, Shape.rowMajor_val_one]; show 0 * 8 + h.val = h.val; omega)).trans ?_
  show x12 ((Rect.unit (s := S32x8) (k0_off1 i) S1x8.size (k0_off1_inb i)).idx (ix2 (0 : Fin 1) h)) = _
  refine congrArg x12 (funext fun a => Fin.ext ?_)
  match a with
  | ⟨0, _⟩ =>
    show k0_off1 i 0 + 1 * 0 = t.val
    rw [k0_off1_eq]; show (i 1).val + 1 * 0 = t.val; omega
  | ⟨1, _⟩ =>
    show k0_off1 i 1 + 1 * h.val = h.val
    rw [k0_off1_eq]; show 0 + 1 * h.val = h.val; omega

/-- The body's one store leaves the block function of what it loaded. -/
theorem out_eq_block (c : Dev nD) (i : grid0.Coords) (arg2 : Memref sig .tc .vmem S1x1x256x512 .f32) (harg2 : arg2.IsWhole) (arg3 : Memref sig .tc .vmem S1x1x256x512 .f32) (harg3 : arg3.IsWhole) (arg4 : Memref sig .tc .vmem S1x1x256x512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S512x512 .f32) (harg11 : arg11.IsWhole) (arg12 : Memref sig .tc .vmem S512 .f32) (harg12 : arg12.IsWhole) (arg13 : Memref sig .tc .vmem S2x8 .f32) (harg13 : arg13.IsWhole) (arg14 : Memref sig .tc .vmem S32x8 .f32) (harg14 : arg14.IsWhole) (arg15 : Memref sig .tc .vmem S1x1x256x512 .f32) (harg15 : arg15.IsWhole)
    (x0 : Vec Ideal S1x1x256x512 .f32) (x1 : Vec Ideal S1x1x256x512 .f32) (x2 : Vec Ideal S1x1x256x512 .f32) (x3 : Vec Ideal S512x512 .f32) (x4 : Vec Ideal S512 .f32) (x5 : Vec Ideal S512x512 .f32) (x6 : Vec Ideal S512 .f32) (x7 : Vec Ideal S512x512 .f32) (x8 : Vec Ideal S512 .f32) (x9 : Vec Ideal S512x512 .f32) (x10 : Vec Ideal S512 .f32) (x11 : Vec Ideal S2x8 .f32) (x12 : Vec Ideal S32x8 .f32) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12
      = shapeCast S1x1x256x512 (blockK x0 x1 x2 x3 x4 x5 x6 x7 x8 x9 x10 x11 (rowAt i x12)) shapeCasts_S256x512_S1x1x256x512 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1x256x512) hz4, View.ld_unit_zero (S := S512x512) hz2, View.ld_unit_zero (S := S512) hz1,
    View.ld_unit_zero (S := S2x8) hz2]
  rfl

end Cert.KernelIdeal.Blk

end
-- ==== Proof.KerBatch.lean ====
/-
  A block of the kernel's output is the matching block of the batch's result: when the loaded blocks are slice
  `(b, t)` of the three inputs, the layers and the scales whole, and row `t` of the shifts, the block function at
  `(0, 0, s, f)` is the batch's result at `(b, t, s, f)`.
-/
import proofs.«109024_j14929306321753_1_alg».proof.Proof.BlockK

set_option maxRecDepth 16384

noncomputable section

namespace Cert.KernelIdeal.Blk

open Cert.KernelIdeal Cert.KernelIdeal.Gen Cert.SpikeAttn Idealize.ShloMosaic Idealize.ShloMosaic.ValueIdx

theorem block_eq_batch (x0 x1 x2 : FVec Ideal S1x1x256x512 .f32) (x3 : FVec Ideal S512x512 .f32) (x4 : FVec Ideal S512 .f32)
    (x5 : FVec Ideal S512x512 .f32) (x6 : FVec Ideal S512 .f32) (x7 : FVec Ideal S512x512 .f32) (x8 : FVec Ideal S512 .f32)
    (x9 : FVec Ideal S512x512 .f32) (x10 : FVec Ideal S512 .f32) (x11 : FVec Ideal S2x8 .f32) (tsr : FVec Ideal S8 .f32)
    (a0 a1 a2 : S4x32x256x512.Idx → EReal) (a3 : S512x512.Idx → EReal) (a4 : S512.Idx → EReal)
    (a5 : S512x512.Idx → EReal) (a6 : S512.Idx → EReal) (a7 : S512x512.Idx → EReal) (a8 : S512.Idx → EReal)
    (a9 : S512x512.Idx → EReal) (a10 : S512.Idx → EReal) (a11 : S2x8.Idx → EReal) (a12 : S32x8.Idx → EReal)
    (b : Fin 4) (t : Fin 32) (s : Fin 256) (f : Fin 512)
    (h0 : ∀ (s : Fin 256) (e : Fin 512), x0 (ix4 (0 : Fin 1) (0 : Fin 1) s e) = a0 (ix4 b t s e))
    (h1 : ∀ (s : Fin 256) (e : Fin 512), x1 (ix4 (0 : Fin 1) (0 : Fin 1) s e) = a1 (ix4 b t s e))
    (h2 : ∀ (s : Fin 256) (e : Fin 512), x2 (ix4 (0 : Fin 1) (0 : Fin 1) s e) = a2 (ix4 b t s e))
    (h3 : ∀ e f : Fin 512, x3 (ix2 e f) = a3 (ix2 e f)) (h4 : ∀ f : Fin 512, x4 (ix1 f) = a4 (ix1 f))
    (h5 : ∀ e f : Fin 512, x5 (ix2 e f) = a5 (ix2 e f)) (h6 : ∀ f : Fin 512, x6 (ix1 f) = a6 (ix1 f))
    (h7 : ∀ e f : Fin 512, x7 (ix2 e f) = a7 (ix2 e f)) (h8 : ∀ f : Fin 512, x8 (ix1 f) = a8 (ix1 f))
    (h9 : ∀ e f : Fin 512, x9 (ix2 e f) = a9 (ix2 e f)) (h10 : ∀ f : Fin 512, x10 (ix1 f) = a10 (ix1 f))
    (h11 : ∀ (r : Fin 2) (h : Fin 8), x11 (ix2 r h) = a11 (ix2 r h)) (h12 : ∀ h : Fin 8, tsr (ix1 h) = a12 (ix2 t h))
    (y : S1x1x256x512.Idx) (i : S4x32x256x512.Idx) (hy2 : (y 2).val = s.val) (hy3 : (y 3).val = f.val)
    (hi0 : (i 0).val = b.val) (hi1 : (i 1).val = t.val) (hi2 : (i 2).val = s.val) (hi3 : (i 3).val = f.val) :
    shapeCast S1x1x256x512 (blockK x0 x1 x2 x3 x4 x5 x6 x7 x8 x9 x10 x11 tsr) shapeCasts_S256x512_S1x1x256x512 y
      = batch a0 a1 a2 a3 a4 a5 a6 a7 a8 a9 a10 a11 a12 i := by
  have ey : shapeCast S1x1x256x512 (blockK x0 x1 x2 x3 x4 x5 x6 x7 x8 x9 x10 x11 tsr) shapeCasts_S256x512_S1x1x256x512 y
      = blockK x0 x1 x2 x3 x4 x5 x6 x7 x8 x9 x10 x11 tsr (ix2 s f) :=
    shapeCast_apply _ shapeCasts_S256x512_S1x1x256x512 y (ix2 s f) (by
      rw [Shape.rowMajor_val_two, Shape.rowMajor_val_four]
      have y0 : (y 0).val < 1 := (y 0).isLt
      have y1 : (y 1).val < 1 := (y 1).isLt
      show s.val * 512 + f.val = (((y 0).val * 1 + (y 1).val) * 256 + (y 2).val) * 512 + (y 3).val
      omega)
  have ei : i = ix4 b t s f := funext fun a => Fin.ext (by
    match a with
    | ⟨0, _⟩ => exact hi0
    | ⟨1, _⟩ => exact hi1
    | ⟨2, _⟩ => exact hi2
    | ⟨3, _⟩ => exact hi3)
  rw [ey, blockK_apply, ei]
  have e0 : (fun s e => x0 (ix4 (0 : Fin 1) (0 : Fin 1) s e)) = blk a0 b t := funext fun s => funext fun e => h0 s e
  have e1 : (fun s e => x1 (ix4 (0 : Fin 1) (0 : Fin 1) s e)) = blk a1 b t := funext fun s => funext fun e => h1 s e
  have e2 : (fun s e => x2 (ix4 (0 : Fin 1) (0 : Fin 1) s e)) = blk a2 b t := funext fun s => funext fun e => h2 s e
  have e3 : (fun e f => x3 (ix2 e f)) = mat a3 := funext fun e => funext fun f => h3 e f
  have e5 : (fun e f => x5 (ix2 e f)) = mat a5 := funext fun e => funext fun f => h5 e f
  have e7 : (fun e f => x7 (ix2 e f)) = mat a7 := funext fun e => funext fun f => h7 e f
  have e9 : (fun e f => x9 (ix2 e f)) = mat a9 := funext fun e => funext fun f => h9 e f
  have e4 : (fun f => x4 (ix1 f)) = vec a4 := funext fun f => h4 f
  have e6 : (fun f => x6 (ix1 f)) = vec a6 := funext fun f => h6 f
  have e8 : (fun f => x8 (ix1 f)) = vec a8 := funext fun f => h8 f
  have e10 : (fun f => x10 (ix1 f)) = vec a10 := funext fun f => h10 f
  have e11 : (fun h' => x11 (ix2 (0 : Fin 2) h') * x11 (ix2 (1 : Fin 2) h')) = mwOf a11 :=
    funext fun h' => by rw [h11, h11]; rfl
  have e12 : (fun h' => tsr (ix1 h')) = tsOf a12 t := funext fun h' => h12 h'
  rw [e0, e1, e2, e3, e4, e5, e6, e7, e8, e9, e10, e11, e12]
  rfl

end Cert.KernelIdeal.Blk

end
-- ==== Proof.KerArr.lean ====
/-
  From the kernel's blocks to its result array.  The grid has one point per slice `(b, t)`; the point's output block
  is slice `(b, t)` of the array, its three input blocks slice `(b, t)` of the inputs, and every other window is its
  whole array.  So what a point writes back is its block of the batch's result, the 128 blocks tile the array,
  and the array ends holding the batch's result.
-/
import proofs.«109024_j14929306321753_1_alg».proof.Proof.Gen.KernelIdeal.Value
import proofs.«109024_j14929306321753_1_alg».proof.Proof.KerPiece
import proofs.«109024_j14929306321753_1_alg».proof.Proof.KerBatch

set_option maxRecDepth 16384

noncomputable section

namespace Cert.KernelIdeal.Blk

open Cert.KernelIdeal Cert.KernelIdeal.Gen Cert.KernelIdeal.Value Cert.SpikeAttn Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The windows' block indices at every grid point: the three inputs and the output move with the point's two
    coordinates, every other window stays at its one block. -/
theorem idx_facts : ∀ t : Fin cfg0.N,
    win0_0.index t (0 : Fin 4) = (grid0.coords t 0).val
    ∧ win0_0.index t (1 : Fin 4) = (grid0.coords t 1).val
    ∧ win0_0.index t (2 : Fin 4) = 0
    ∧ win0_0.index t (3 : Fin 4) = 0
    ∧ win0_1.index t (0 : Fin 4) = (grid0.coords t 0).val
    ∧ win0_1.index t (1 : Fin 4) = (grid0.coords t 1).val
    ∧ win0_1.index t (2 : Fin 4) = 0
    ∧ win0_1.index t (3 : Fin 4) = 0
    ∧ win0_2.index t (0 : Fin 4) = (grid0.coords t 0).val
    ∧ win0_2.index t (1 : Fin 4) = (grid0.coords t 1).val
    ∧ win0_2.index t (2 : Fin 4) = 0
    ∧ win0_2.index t (3 : Fin 4) = 0
    ∧ win0_13.index t (0 : Fin 4) = (grid0.coords t 0).val
    ∧ win0_13.index t (1 : Fin 4) = (grid0.coords t 1).val
    ∧ win0_13.index t (2 : Fin 4) = 0
    ∧ win0_13.index t (3 : Fin 4) = 0
    ∧ win0_3.index t (0 : Fin 2) = 0
    ∧ win0_3.index t (1 : Fin 2) = 0
    ∧ win0_5.index t (0 : Fin 2) = 0
    ∧ win0_5.index t (1 : Fin 2) = 0
    ∧ win0_7.index t (0 : Fin 2) = 0
    ∧ win0_7.index t (1 : Fin 2) = 0
    ∧ win0_9.index t (0 : Fin 2) = 0
    ∧ win0_9.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_4.index t (0 : Fin 1) = 0
    ∧ win0_6.index t (0 : Fin 1) = 0
    ∧ win0_8.index t (0 : Fin 1) = 0
    ∧ win0_10.index t (0 : Fin 1) = 0 :=
  (by decide +kernel : ∀ t : Fin grid0.N, _)

/-- Every slice is some point's output block. -/
theorem idx_onto : ∀ (q0 : Fin 4) (q1 : Fin 32), ∃ t : Fin cfg0.N, win0_13.index t = ![q0.val, q1.val, 0, 0] :=
  (by decide +kernel : ∀ (q0 : Fin 4) (q1 : Fin 32), ∃ t : Fin grid0.N, win0_13.index t = ![q0.val, q1.val, 0, 0])

/-- What point `t` writes back is its block of the batch's result. -/
theorem flushed_eq (c : Dev nD) (t : Fin cfg0.N) :
    (dats m 0 c).flushed 13 t
      = ((cfg0.win 13).blk t).view.read (Elt Ideal) (batch (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)) := by
  rw [flushed13_A, out_eq_block]
  obtain ⟨f0_0, f0_1, f0_2, f0_3, f1_0, f1_1, f1_2, f1_3, f2_0, f2_1, f2_2, f2_3, f13_0, f13_1, f13_2, f13_3, f3_0, f3_1, f5_0, f5_1, f7_0, f7_1, f9_0, f9_1, f11_0, f11_1, f12_0, f12_1, f4_0, f6_0, f8_0, f10_0⟩ := idx_facts t
  funext j
  have hj2 : (j 2).val < 256 := (j 2).isLt
  have hj3 : (j 3).val < 512 := (j 3).isLt
  have hb : (grid0.coords t 0).val < 4 := (grid0.coords t 0).isLt
  have ht : (grid0.coords t 1).val < 32 := (grid0.coords t 1).isLt
  show shapeCast S1x1x256x512 (blockK (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (rowAt (grid0.coords t) (iblk m c 12 t))) shapeCasts_S256x512_S1x1x256x512 j
    = batch (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (((cfg0.win 13).blk t).view.emb j)
  refine block_eq_batch (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (rowAt (grid0.coords t) (iblk m c 12 t))
    (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)
    ⟨(grid0.coords t 0).val, hb⟩ ⟨(grid0.coords t 1).val, ht⟩ ⟨(j 2).val, hj2⟩ ⟨(j 3).val, hj3⟩
    ?_ ?_ ?_ ?_ ?_ ?_ ?_ ?_ ?_ ?_ ?_ ?_ ?_ j (((cfg0.win 13).blk t).view.emb j) rfl rfl ?_ ?_ ?_ ?_
  · intro s e
    show V m c main_arg0 (((cfg0.win 0).blk t).view.emb (ix4 (0 : Fin 1) (0 : Fin 1) s e)) = _
    refine congrArg (V m c main_arg0) (funext fun a => Fin.ext ?_)
    match a with
    | ⟨0, _⟩ => show win0_0.index t (0 : Fin 4) * 1 + 1 * 0 = (grid0.coords t 0).val; omega
    | ⟨1, _⟩ => show win0_0.index t (1 : Fin 4) * 1 + 1 * 0 = (grid0.coords t 1).val; omega
    | ⟨2, _⟩ => show win0_0.index t (2 : Fin 4) * 256 + 1 * s.val = s.val; omega
    | ⟨3, _⟩ => show win0_0.index t (3 : Fin 4) * 512 + 1 * e.val = e.val; omega
  · intro s e
    show V m c main_arg1 (((cfg0.win 1).blk t).view.emb (ix4 (0 : Fin 1) (0 : Fin 1) s e)) = _
    refine congrArg (V m c main_arg1) (funext fun a => Fin.ext ?_)
    match a with
    | ⟨0, _⟩ => show win0_1.index t (0 : Fin 4) * 1 + 1 * 0 = (grid0.coords t 0).val; omega
    | ⟨1, _⟩ => show win0_1.index t (1 : Fin 4) * 1 + 1 * 0 = (grid0.coords t 1).val; omega
    | ⟨2, _⟩ => show win0_1.index t (2 : Fin 4) * 256 + 1 * s.val = s.val; omega
    | ⟨3, _⟩ => show win0_1.index t (3 : Fin 4) * 512 + 1 * e.val = e.val; omega
  · intro s e
    show V m c main_arg2 (((cfg0.win 2).blk t).view.emb (ix4 (0 : Fin 1) (0 : Fin 1) s e)) = _
    refine congrArg (V m c main_arg2) (funext fun a => Fin.ext ?_)
    match a with
    | ⟨0, _⟩ => show win0_2.index t (0 : Fin 4) * 1 + 1 * 0 = (grid0.coords t 0).val; omega
    | ⟨1, _⟩ => show win0_2.index t (1 : Fin 4) * 1 + 1 * 0 = (grid0.coords t 1).val; omega
    | ⟨2, _⟩ => show win0_2.index t (2 : Fin 4) * 256 + 1 * s.val = s.val; omega
    | ⟨3, _⟩ => show win0_2.index t (3 : Fin 4) * 512 + 1 * e.val = e.val; omega
  · intro e f
    show V m c main_arg3 (((cfg0.win 3).blk t).view.emb (ix2 e f)) = _
    refine congrArg (V m c main_arg3) (funext fun a => Fin.ext ?_)
    match a with
    | ⟨0, _⟩ => show win0_3.index t (0 : Fin 2) * 512 + 1 * e.val = e.val; omega
    | ⟨1, _⟩ => show win0_3.index t (1 : Fin 2) * 512 + 1 * f.val = f.val; omega
  · intro f
    show V m c main_arg4 (((cfg0.win 4).blk t).view.emb (ix1 f)) = _
    refine congrArg (V m c main_arg4) (funext fun a => Fin.ext ?_)
    match a with
    | ⟨0, _⟩ => show win0_4.index t (0 : Fin 1) * 512 + 1 * f.val = f.val; omega
  · intro e f
    show V m c main_arg5 (((cfg0.win 5).blk t).view.emb (ix2 e f)) = _
    refine congrArg (V m c main_arg5) (funext fun a => Fin.ext ?_)
    match a with
    | ⟨0, _⟩ => show win0_5.index t (0 : Fin 2) * 512 + 1 * e.val = e.val; omega
    | ⟨1, _⟩ => show win0_5.index t (1 : Fin 2) * 512 + 1 * f.val = f.val; omega
  · intro f
    show V m c main_arg6 (((cfg0.win 6).blk t).view.emb (ix1 f)) = _
    refine congrArg (V m c main_arg6) (funext fun a => Fin.ext ?_)
    match a with
    | ⟨0, _⟩ => show win0_6.index t (0 : Fin 1) * 512 + 1 * f.val = f.val; omega
  · intro e f
    show V m c main_arg7 (((cfg0.win 7).blk t).view.emb (ix2 e f)) = _
    refine congrArg (V m c main_arg7) (funext fun a => Fin.ext ?_)
    match a with
    | ⟨0, _⟩ => show win0_7.index t (0 : Fin 2) * 512 + 1 * e.val = e.val; omega
    | ⟨1, _⟩ => show win0_7.index t (1 : Fin 2) * 512 + 1 * f.val = f.val; omega
  · intro f
    show V m c main_arg8 (((cfg0.win 8).blk t).view.emb (ix1 f)) = _
    refine congrArg (V m c main_arg8) (funext fun a => Fin.ext ?_)
    match a with
    | ⟨0, _⟩ => show win0_8.index t (0 : Fin 1) * 512 + 1 * f.val = f.val; omega
  · intro e f
    show V m c main_arg9 (((cfg0.win 9).blk t).view.emb (ix2 e f)) = _
    refine congrArg (V m c main_arg9) (funext fun a => Fin.ext ?_)
    match a with
    | ⟨0, _⟩ => show win0_9.index t (0 : Fin 2) * 512 + 1 * e.val = e.val; omega
    | ⟨1, _⟩ => show win0_9.index t (1 : Fin 2) * 512 + 1 * f.val = f.val; omega
  · intro f
    show V m c main_arg10 (((cfg0.win 10).blk t).view.emb (ix1 f)) = _
    refine congrArg (V m c main_arg10) (funext fun a => Fin.ext ?_)
    match a with
    | ⟨0, _⟩ => show win0_10.index t (0 : Fin 1) * 512 + 1 * f.val = f.val; omega
  · intro r h
    show V m c main_arg11 (((cfg0.win 11).blk t).view.emb (ix2 r h)) = _
    refine congrArg (V m c main_arg11) (funext fun a => Fin.ext ?_)
    match a with
    | ⟨0, _⟩ => show win0_11.index t (0 : Fin 2) * 2 + 1 * r.val = r.val; omega
    | ⟨1, _⟩ => show win0_11.index t (1 : Fin 2) * 8 + 1 * h.val = h.val; omega
  · intro h
    refine (rowAt_apply (grid0.coords t) (iblk m c 12 t) ⟨(grid0.coords t 1).val, ht⟩ rfl h).trans ?_
    show V m c main_arg12 (((cfg0.win 12).blk t).view.emb (ix2 (⟨(grid0.coords t 1).val, ht⟩ : Fin 32) h)) = _
    refine congrArg (V m c main_arg12) (funext fun a => Fin.ext ?_)
    match a with
    | ⟨0, _⟩ => show win0_12.index t (0 : Fin 2) * 32 + 1 * (grid0.coords t 1).val = (grid0.coords t 1).val; omega
    | ⟨1, _⟩ => show win0_12.index t (1 : Fin 2) * 8 + 1 * h.val = h.val; omega
  · show win0_13.index t (0 : Fin 4) * 1 + 1 * (j 0).val = (grid0.coords t 0).val
    have hj0 : (j 0).val < 1 := (j 0).isLt
    omega
  · show win0_13.index t (1 : Fin 4) * 1 + 1 * (j 1).val = (grid0.coords t 1).val
    have hj1 : (j 1).val < 1 := (j 1).isLt
    omega
  · show win0_13.index t (2 : Fin 4) * 256 + 1 * (j 2).val = (j 2).val
    omega
  · show win0_13.index t (3 : Fin 4) * 512 + 1 * (j 3).val = (j 3).val
    omega

/-- An index of the array is in point `t`'s block iff each coordinate is in the block's range on its axis. -/
theorem mem_blk (t : Fin cfg0.N) (i : S4x32x256x512.Idx) :
    i ∈ ((cfg0.win 13).blk t).view.set ↔ ∀ a : Fin 4, win0_13.index t a * S1x1x256x512.size a ≤ (i a).val
      ∧ (i a).val < win0_13.index t a * S1x1x256x512.size a + S1x1x256x512.size a := by
  show i ∈ ((View.whole main_v0).slice (win0_13.rect t)).set ↔ _
  rw [View.set_slice_whole, Rect.mem_set_unit]
  exact Iff.rfl

/-- The 128 blocks tile the array: index `(b, t, s, f)` is in the block of the point whose output block is slice `(b, t)`. -/
theorem cover (i : S4x32x256x512.Idx) :
    ∃ t : Fin cfg0.N, (cfg0.win 13).flush t = true ∧ i ∈ ((cfg0.win 13).blk t).view.set := by
  have hi0 : (i 0).val < 4 := (i 0).isLt
  have hi1 : (i 1).val < 32 := (i 1).isLt
  have hi2 : (i 2).val < 256 := (i 2).isLt
  have hi3 : (i 3).val < 512 := (i 3).isLt
  obtain ⟨t, ht⟩ := idx_onto ⟨(i 0).val, hi0⟩ ⟨(i 1).val, hi1⟩
  have q0 : win0_13.index t (0 : Fin 4) = (i 0).val := congrFun ht 0
  have q1 : win0_13.index t (1 : Fin 4) = (i 1).val := congrFun ht 1
  have q2 : win0_13.index t (2 : Fin 4) = 0 := congrFun ht 2
  have q3 : win0_13.index t (3 : Fin 4) = 0 := congrFun ht 3
  refine ⟨t, flush0_13 t, ?_⟩
  rw [mem_blk]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 1 ≤ (i 1).val ∧ (i 1).val < win0_13.index t (1 : Fin 4) * 1 + 1; omega
  | ⟨2, _⟩ => show win0_13.index t (2 : Fin 4) * 256 ≤ (i 2).val ∧ (i 2).val < win0_13.index t (2 : Fin 4) * 256 + 256; omega
  | ⟨3, _⟩ => show win0_13.index t (3 : Fin 4) * 512 ≤ (i 3).val ∧ (i 3).val < win0_13.index t (3 : Fin 4) * 512 + 512; omega

/-- The array after the run is the batch's result of the argument arrays. -/
theorem final (c : Dev nD) :
    (dats m 0 c).arrAt 13 cfg0.N = batch (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) :=
  (dats m 0 c).arrAt_eq_of_cover 13 (batch (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12))
    (fun t _ => flushed_eq m c t) cover

/-- The kernel's run: the result array ends at the batch's result of the arguments, the arguments unchanged. -/
theorem run : θ_run defs (onTc (τ := τ) (main (F := Ideal))) ⟨m, fun _ => 0, ρ⟩ fun r => ∀ c : Dev nD,
      r.2.mem ((c : Thread nD τ).loc main_v0) = batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelIdeal.Blk

end
-- ==== Proof.RefProj.lean ====
/-
  The reference's three projections read at an index.

  `einsum("btse,ef->btsf", x, W) + b`, reshaped to heads and transposed to `[B, T, H, S, D]`: at
  `(b, t, h, q, d)` it is the dense layer of slice `(b, t)` at position `q`, feature `64 h + d`.
-/
import proofs.«109024_j14929306321753_1_alg».proof.Proof.Gen.ReferenceIdeal.Read
import proofs.«109024_j14929306321753_1_alg».proof.Proof.Spec

set_option maxRecDepth 16384

noncomputable section

namespace Cert.SpikeAttn.Ref

open Cert.ReferenceIdeal Cert.ReferenceIdeal.Read Cert.SpikeAttn Idealize.ShloMosaic Idealize.ShloMosaic.ValueIdx

/-- The dense layer over the whole batch at `(b, t, s, f)`. -/
theorem dense_apply (x0 : (⟨S4x32x256x512, .f32⟩ : BufTy).Contents (Elt Ideal)) (x3 : (⟨S512x512, .f32⟩ : BufTy).Contents (Elt Ideal))
    (x4 : (⟨S512, .f32⟩ : BufTy).Contents (Elt Ideal)) (b : Fin 4) (t : Fin 32) (s : Fin 256) (f : Fin 512) :
    val_main_v3 (F := Ideal) x0 x3 x4 (ix4 b t s f) = lin (blk x0 b t) (mat x3) (vec x4) s f := by
  rw [val_main_v3_apply, val_main_v0_apply, val_main_v2_apply, val_main_v1_apply]
  have e1 : ∀ k : Fin 512, lidx_main_v0 (ix4 b t s f) k = ix4 b t s k := fun k => funext fun a => Fin.ext (by
    match a with | ⟨0, _⟩ => rfl | ⟨1, _⟩ => rfl | ⟨2, _⟩ => rfl | ⟨3, _⟩ => rfl)
  have e2 : ∀ k : Fin 512, ridx_main_v0 (ix4 b t s f) k = ix2 k f := fun k => funext fun a => Fin.ext (by
    match a with | ⟨0, _⟩ => rfl | ⟨1, _⟩ => rfl)
  have e3 : idx_main_v1 (idx_main_v2 (ix4 b t s f)) = ix1 f := funext fun a => Fin.ext (by
    match a with | ⟨0, _⟩ => rfl)
  simp only [e1, e2, e3]
  rfl

/-- The three projections and the output layer are the same program text on different operands. -/
theorem v9_eq (x1 : (⟨S4x32x256x512, .f32⟩ : BufTy).Contents (Elt Ideal)) (x5 : (⟨S512x512, .f32⟩ : BufTy).Contents (Elt Ideal))
    (x6 : (⟨S512, .f32⟩ : BufTy).Contents (Elt Ideal)) : val_main_v9 (F := Ideal) x1 x5 x6 = val_main_v3 (F := Ideal) x1 x5 x6 := rfl
theorem v15_eq (x2 : (⟨S4x32x256x512, .f32⟩ : BufTy).Contents (Elt Ideal)) (x7 : (⟨S512x512, .f32⟩ : BufTy).Contents (Elt Ideal))
    (x8 : (⟨S512, .f32⟩ : BufTy).Contents (Elt Ideal)) : val_main_v15 (F := Ideal) x2 x7 x8 = val_main_v3 (F := Ideal) x2 x7 x8 := rfl
theorem v11_eq (x1 : (⟨S4x32x256x512, .f32⟩ : BufTy).Contents (Elt Ideal)) (x5 : (⟨S512x512, .f32⟩ : BufTy).Contents (Elt Ideal))
    (x6 : (⟨S512, .f32⟩ : BufTy).Contents (Elt Ideal)) : val_main_v11 (F := Ideal) x1 x5 x6 = val_main_v5 (F := Ideal) x1 x5 x6 := rfl
theorem v17_eq (x2 : (⟨S4x32x256x512, .f32⟩ : BufTy).Contents (Elt Ideal)) (x7 : (⟨S512x512, .f32⟩ : BufTy).Contents (Elt Ideal))
    (x8 : (⟨S512, .f32⟩ : BufTy).Contents (Elt Ideal)) : val_main_v17 (F := Ideal) x2 x7 x8 = val_main_v5 (F := Ideal) x2 x7 x8 := rfl

/-- The flat position of `(b, t, q, h, d)` in `[4, 32, 256, 8, 64]` is that of `(b, t, q, 64 h + d)` in `[4, 32, 256, 512]`. -/
theorem heads_idx (b : Fin 4) (t : Fin 32) (q : Fin 256) (h : Fin 8) (d : Fin 64) :
    idx_main_v4 (ix5 b t q h d) = ix4 b t q (col h d) := by
  have hb := b.isLt; have ht := t.isLt; have hq := q.isLt; have hh := h.isLt; have hd := d.isLt
  funext a
  apply Fin.ext
  match a with
  | ⟨0, _⟩ => show (((((b.val * 32 + t.val) * 256 + q.val) * 8 + h.val) * 64 + d.val) / 4194304) = b.val; omega
  | ⟨1, _⟩ => show (((((b.val * 32 + t.val) * 256 + q.val) * 8 + h.val) * 64 + d.val) / 131072 % 32) = t.val; omega
  | ⟨2, _⟩ => show (((((b.val * 32 + t.val) * 256 + q.val) * 8 + h.val) * 64 + d.val) / 512 % 256) = q.val; omega
  | ⟨3, _⟩ => show (((((b.val * 32 + t.val) * 256 + q.val) * 8 + h.val) * 64 + d.val) % 512) = 64 * h.val + d.val; omega

/-- A projection split into heads, at `(b, t, h, q, d)`. -/
theorem proj_apply (x0 : (⟨S4x32x256x512, .f32⟩ : BufTy).Contents (Elt Ideal)) (x3 : (⟨S512x512, .f32⟩ : BufTy).Contents (Elt Ideal))
    (x4 : (⟨S512, .f32⟩ : BufTy).Contents (Elt Ideal)) (b : Fin 4) (t : Fin 32) (h : Fin 8) (q : Fin 256) (d : Fin 64) :
    val_main_v5 (F := Ideal) x0 x3 x4 (ix5 b t h q d) = lin (blk x0 b t) (mat x3) (vec x4) q (col h d) := by
  rw [val_main_v5_apply, val_main_v4_apply]
  have e : idx_main_v5 (ix5 b t h q d) = ix5 b t q h d := funext fun a => Fin.ext (by
    match a with | ⟨0, _⟩ => rfl | ⟨1, _⟩ => rfl | ⟨2, _⟩ => rfl | ⟨3, _⟩ => rfl | ⟨4, _⟩ => rfl)
  rw [e, heads_idx]
  exact dense_apply x0 x3 x4 b t q (col h d)

end Cert.SpikeAttn.Ref

end
-- ==== Proof.RefAttn.lean ====
/-
  The reference's attention read at an index: the scores, each row's largest score, the sigmoid weights, the row's
  total, the normalised weights and their product with the values, all at `(b, t, h, q, ·)`, are the slice's
  functions of slice `(b, t)`'s projections.  The reference divides the raw scores by 8 where the slice's function
  multiplies by 1/8; it spells the logistic function out as `1 / (1 + e^(-x))`.
-/
import proofs.«109024_j14929306321753_1_alg».proof.Proof.RefProj

set_option maxRecDepth 16384

noncomputable section

namespace Cert.SpikeAttn.Ref

open Cert.ReferenceIdeal Cert.ReferenceIdeal.Gen Cert.ReferenceIdeal.Read Cert.SpikeAttn Idealize.ShloMosaic Idealize.ShloMosaic.ValueIdx

theorem scale_apply (x11 : (⟨S2x8, .f32⟩ : BufTy).Contents (Elt Ideal)) (b : Fin 4) (t : Fin 32) (h : Fin 8) (q k : Fin 256) :
    val_main_v27 (F := Ideal) x11 (ix5 b t h q k) = mwOf x11 h := by
  rw [val_main_v27_apply, val_main_v26_apply, val_main_v25_apply, val_main_v22_apply, val_main_v24_apply,
    val_main_v21_apply, val_main_v23_apply]
  have hh := h.isLt
  have e0 : idx_main_v21 (idx_main_v22 (idx_main_v26 (idx_main_v27 (ix5 b t h q k)))) = ix2 (0 : Fin 2) h :=
    funext fun a => Fin.ext (by
      match a with
      | ⟨0, _⟩ => rfl
      | ⟨1, _⟩ => show (((((0 * 1 + 0) * 8 + h.val) * 1 + 0) * 1 + 0)) % 8 = h.val; omega)
  have e1 : idx_main_v23 (idx_main_v24 (idx_main_v26 (idx_main_v27 (ix5 b t h q k)))) = ix2 (1 : Fin 2) h :=
    funext fun a => Fin.ext (by
      match a with
      | ⟨0, _⟩ => rfl
      | ⟨1, _⟩ => show (((((0 * 1 + 0) * 8 + h.val) * 1 + 0) * 1 + 0)) % 8 = h.val; omega)
  rw [e0, e1]
  rfl

theorem shift_apply (x12 : (⟨S32x8, .f32⟩ : BufTy).Contents (Elt Ideal)) (b : Fin 4) (t : Fin 32) (h : Fin 8) (q k : Fin 256) :
    val_main_v30 (F := Ideal) x12 (ix5 b t h q k) = tsOf x12 t h := by
  rw [val_main_v30_apply, val_main_v29_apply]
  have hh := h.isLt; have ht := t.isLt
  have e : idx_main_v29 (idx_main_v30 (ix5 b t h q k)) = ix2 t h := funext fun a => Fin.ext (by
    match a with
    | ⟨0, _⟩ => show (((((0 * 32 + t.val) * 8 + h.val) * 1 + 0) * 1 + 0)) / 8 = t.val; omega
    | ⟨1, _⟩ => show (((((0 * 32 + t.val) * 8 + h.val) * 1 + 0) * 1 + 0)) % 8 = h.val; omega)
  rw [e]
  rfl

/-- The scores at `(b, t, h, q, k)`. -/
theorem score_apply (x0 : (⟨S4x32x256x512, .f32⟩ : BufTy).Contents (Elt Ideal)) (x1 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x11 : (⟨S2x8, .f32⟩ : BufTy).Contents (Elt Ideal)) (x12 : (⟨S32x8, .f32⟩ : BufTy).Contents (Elt Ideal)) (b : Fin 4) (t : Fin 32) (h : Fin 8) (q k : Fin 256) :
    val_main_v31 (F := Ideal) x0 x1 x3 x4 x5 x6 x11 x12 (ix5 b t h q k) = score (lin (blk x0 b t) (mat x3) (vec x4)) (lin (blk x1 b t) (mat x5) (vec x6)) (mwOf x11) (tsOf x12 t) h q k := by
  rw [val_main_v31_apply, val_main_v28_apply, val_main_v20_apply, val_main_v18_apply, val_main_v19_apply,
    val_main_cst_apply, scale_apply, shift_apply]
  have el : ∀ d : Fin 64, lidx_main_v18 (ix5 b t h q k) d = ix5 b t h q d := fun d => funext fun a => Fin.ext (by
    match a with | ⟨0, _⟩ => rfl | ⟨1, _⟩ => rfl | ⟨2, _⟩ => rfl | ⟨3, _⟩ => rfl | ⟨4, _⟩ => rfl)
  have er : ∀ d : Fin 64, ridx_main_v18 (ix5 b t h q k) d = ix5 b t h k d := fun d => funext fun a => Fin.ext (by
    match a with | ⟨0, _⟩ => rfl | ⟨1, _⟩ => rfl | ⟨2, _⟩ => rfl | ⟨3, _⟩ => rfl | ⟨4, _⟩ => rfl)
  simp only [el, er, v11_eq, proj_apply]
  unfold score
  exact congrArg (fun z => z * mwOf x11 h + tsOf x12 t h) (div_eight _)

/-- Each row's largest score. -/
theorem top_apply (x0 : (⟨S4x32x256x512, .f32⟩ : BufTy).Contents (Elt Ideal)) (x1 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x11 : (⟨S2x8, .f32⟩ : BufTy).Contents (Elt Ideal)) (x12 : (⟨S32x8, .f32⟩ : BufTy).Contents (Elt Ideal)) (b : Fin 4) (t : Fin 32) (h : Fin 8) (q : Fin 256) :
    val_main_v32 (F := Ideal) x0 x1 x3 x4 x5 x6 x11 x12 (ix4 b t h q) = top (lin (blk x0 b t) (mat x3) (vec x4)) (lin (blk x1 b t) (mat x5) (vec x6)) (mwOf x11) (tsOf x12 t) h q := by
  unfold val_main_v32
  have hred : S4x32x8x256x256.Reduces [4] S4x32x8x256 := by decide
  refine (Host.reduce_eq_fold_single FloatOps.maximumf _ _ reducesTo_S4x32x8x256x256_S4x32x8x256_d4 hred h_S_
    (ix4 b t h q)).trans ?_
  unfold top
  have hf : (val_main_v31 (F := Ideal) x0 x1 x3 x4 x5 x6 x11 x12 ∘ hred.lift (ix4 b t h q))
      = fun k => score (lin (blk x0 b t) (mat x3) (vec x4)) (lin (blk x1 b t) (mat x5) (vec x6)) (mwOf x11) (tsOf x12 t) h q k := funext fun k => by
    have e : hred.lift (ix4 b t h q) k = ix5 b t h q k := funext fun a => Fin.ext (by
      match a with | ⟨0, _⟩ => rfl | ⟨1, _⟩ => rfl | ⟨2, _⟩ => rfl | ⟨3, _⟩ => rfl | ⟨4, _⟩ => rfl)
    show val_main_v31 (F := Ideal) x0 x1 x3 x4 x5 x6 x11 x12 (hred.lift (ix4 b t h q) k) = _
    rw [e]
    exact score_apply x0 x1 x3 x4 x5 x6 x11 x12 b t h q k
  rw [hf]
  rfl

/-- The sigmoid weights. -/
theorem weight_apply (x0 : (⟨S4x32x256x512, .f32⟩ : BufTy).Contents (Elt Ideal)) (x1 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x11 : (⟨S2x8, .f32⟩ : BufTy).Contents (Elt Ideal)) (x12 : (⟨S32x8, .f32⟩ : BufTy).Contents (Elt Ideal)) (b : Fin 4) (t : Fin 32) (h : Fin 8) (q k : Fin 256) :
    val_main_v43 (F := Ideal) x0 x1 x3 x4 x5 x6 x11 x12 (ix5 b t h q k) = weight (lin (blk x0 b t) (mat x3) (vec x4)) (lin (blk x1 b t) (mat x5) (vec x6)) (mwOf x11) (tsOf x12 t) h q k := by
  rw [val_main_v43_apply, val_main_v42_apply, val_main_cst_3_apply, val_main_v41_apply, val_main_v40_apply,
    val_main_cst_2_apply, val_main_v39_apply, val_main_v38_apply, val_main_v37_apply, val_main_v36_apply,
    val_main_cst_1_apply, val_main_v35_apply, val_main_v34_apply, val_main_v33_apply]
  have e : idx_main_v33 (idx_main_v34 (ix5 b t h q k)) = ix4 b t h q := funext fun a => Fin.ext (by
    match a with | ⟨0, _⟩ => rfl | ⟨1, _⟩ => rfl | ⟨2, _⟩ => rfl | ⟨3, _⟩ => rfl)
  rw [e, top_apply, score_apply]
  unfold weight
  exact logistic_spelt _

/-- The normalised weights. -/
theorem attn_apply (x0 : (⟨S4x32x256x512, .f32⟩ : BufTy).Contents (Elt Ideal)) (x1 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x11 : (⟨S2x8, .f32⟩ : BufTy).Contents (Elt Ideal)) (x12 : (⟨S32x8, .f32⟩ : BufTy).Contents (Elt Ideal)) (b : Fin 4) (t : Fin 32) (h : Fin 8) (q k : Fin 256) :
    val_main_v49 (F := Ideal) x0 x1 x3 x4 x5 x6 x11 x12 (ix5 b t h q k)
      = Ideal.div (weight (lin (blk x0 b t) (mat x3) (vec x4)) (lin (blk x1 b t) (mat x5) (vec x6)) (mwOf x11) (tsOf x12 t) h q k) (total (lin (blk x0 b t) (mat x3) (vec x4)) (lin (blk x1 b t) (mat x5) (vec x6)) (mwOf x11) (tsOf x12 t) h q) := by
  rw [val_main_v49_apply, val_main_v48_apply, val_main_v47_apply, val_main_v46_apply, val_main_cst_5_apply,
    val_main_v45_apply, val_main_v44_apply, val_main_cst_4_apply]
  have e1 : idx_main_v45 (idx_main_v48 (ix5 b t h q k)) = ix4 b t h q := funext fun a => Fin.ext (by
    match a with | ⟨0, _⟩ => rfl | ⟨1, _⟩ => rfl | ⟨2, _⟩ => rfl | ⟨3, _⟩ => rfl)
  have e2 : ∀ k' : Fin 256, idx_main_v44 (ix4 b t h q) k' = ix5 b t h q k' := fun k' => funext fun a => Fin.ext (by
    match a with | ⟨0, _⟩ => rfl | ⟨1, _⟩ => rfl | ⟨2, _⟩ => rfl | ⟨3, _⟩ => rfl | ⟨4, _⟩ => rfl)
  rw [e1]
  simp only [e2, weight_apply]
  unfold total
  show Ideal.div _ ((Ideal.ofBits .f32 0x00000000#32 + _) + _) = _
  rw [word_zero, zero_add]
  rfl

/-- The normalised weights applied to the values. -/
theorem mixed_apply (x0 : (⟨S4x32x256x512, .f32⟩ : BufTy).Contents (Elt Ideal)) (x1 : (⟨S4x32x256x512, .f32⟩ : BufTy).Contents (Elt Ideal)) (x2 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x11 : (⟨S2x8, .f32⟩ : BufTy).Contents (Elt Ideal)) (x12 : (⟨S32x8, .f32⟩ : BufTy).Contents (Elt Ideal)) (b : Fin 4) (t : Fin 32) (h : Fin 8) (q : Fin 256) (d : Fin 64) :
    val_main_v50 (F := Ideal) x0 x1 x2 x3 x4 x5 x6 x7 x8 x11 x12 (ix5 b t h q d) = mixed (lin (blk x0 b t) (mat x3) (vec x4)) (lin (blk x1 b t) (mat x5) (vec x6)) (lin (blk x2 b t) (mat x7) (vec x8)) (mwOf x11) (tsOf x12 t) q h d := by
  rw [val_main_v50_apply]
  have el : ∀ k : Fin 256, lidx_main_v50 (ix5 b t h q d) k = ix5 b t h q k := fun k => funext fun a => Fin.ext (by
    match a with | ⟨0, _⟩ => rfl | ⟨1, _⟩ => rfl | ⟨2, _⟩ => rfl | ⟨3, _⟩ => rfl | ⟨4, _⟩ => rfl)
  have er : ∀ k : Fin 256, ridx_main_v50 (ix5 b t h q d) k = ix5 b t h k d := fun k => funext fun a => Fin.ext (by
    match a with | ⟨0, _⟩ => rfl | ⟨1, _⟩ => rfl | ⟨2, _⟩ => rfl | ⟨3, _⟩ => rfl | ⟨4, _⟩ => rfl)
  simp only [el, er, attn_apply, v17_eq, proj_apply]
  rfl

end Cert.SpikeAttn.Ref

end
-- ==== Proof.RefOut.lean ====
/-
  The reference's result read at an index: the heads laid back side by side (`[B, T, H, S, D]` transposed and
  reshaped to `[B, T, S, 512]`), then the output layer.  At `(b, t, s, f)` it is the slice's function of
  slice `(b, t)` of the three inputs, the weights, and row `t` of the shifts.
-/
import proofs.«109024_j14929306321753_1_alg».proof.Proof.RefAttn

set_option maxRecDepth 16384

noncomputable section

namespace Cert.SpikeAttn.Ref

open Cert.ReferenceIdeal Cert.ReferenceIdeal.Gen Cert.ReferenceIdeal.Read Cert.SpikeAttn Idealize.ShloMosaic Idealize.ShloMosaic.ValueIdx

/-- Feature `e` of the re-laid heads is coordinate `e % 64` of head `e / 64`. -/
theorem relaid_apply (x0 : (⟨S4x32x256x512, .f32⟩ : BufTy).Contents (Elt Ideal)) (x1 : (⟨S4x32x256x512, .f32⟩ : BufTy).Contents (Elt Ideal)) (x2 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x11 : (⟨S2x8, .f32⟩ : BufTy).Contents (Elt Ideal)) (x12 : (⟨S32x8, .f32⟩ : BufTy).Contents (Elt Ideal)) (b : Fin 4) (t : Fin 32) (q : Fin 256) (e : Fin 512) :
    val_main_v52 (F := Ideal) x0 x1 x2 x3 x4 x5 x6 x7 x8 x11 x12 (ix4 b t q e) = mixedRow (lin (blk x0 b t) (mat x3) (vec x4)) (lin (blk x1 b t) (mat x5) (vec x6)) (lin (blk x2 b t) (mat x7) (vec x8)) (mwOf x11) (tsOf x12 t) q e := by
  rw [val_main_v52_apply, val_main_v51_apply]
  have hb := b.isLt; have ht := t.isLt; have hq := q.isLt; have he := e.isLt
  have hlt : e.val / 64 < 8 := by omega
  have hmod : e.val % 64 < 64 := Nat.mod_lt _ (by decide)
  have ei : idx_main_v51 (idx_main_v52 (ix4 b t q e)) = ix5 b t (⟨e.val / 64, hlt⟩ : Fin 8) q (⟨e.val % 64, hmod⟩ : Fin 64) :=
    funext fun a => Fin.ext (by
      match a with
      | ⟨0, _⟩ => show (((b.val * 32 + t.val) * 256 + q.val) * 512 + e.val) / 4194304 = b.val; omega
      | ⟨1, _⟩ => show (((b.val * 32 + t.val) * 256 + q.val) * 512 + e.val) / 131072 % 32 = t.val; omega
      | ⟨2, _⟩ => show (((b.val * 32 + t.val) * 256 + q.val) * 512 + e.val) / 64 % 8 = e.val / 64; omega
      | ⟨3, _⟩ => show (((b.val * 32 + t.val) * 256 + q.val) * 512 + e.val) / 512 % 256 = q.val; omega
      | ⟨4, _⟩ => show (((b.val * 32 + t.val) * 256 + q.val) * 512 + e.val) % 64 = e.val % 64; omega)
  rw [ei]
  exact mixed_apply x0 x1 x2 x3 x4 x5 x6 x7 x8 x11 x12 b t ⟨e.val / 64, hlt⟩ q ⟨e.val % 64, hmod⟩

/-- The reference's result at `(b, t, s, f)`. -/
theorem result_apply (x0 : (⟨S4x32x256x512, .f32⟩ : BufTy).Contents (Elt Ideal)) (x1 : (⟨S4x32x256x512, .f32⟩ : BufTy).Contents (Elt Ideal)) (x2 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S2x8, .f32⟩ : BufTy).Contents (Elt Ideal)) (x12 : (⟨S32x8, .f32⟩ : BufTy).Contents (Elt Ideal)) (b : Fin 4) (t : Fin 32) (s : Fin 256) (f : Fin 512) :
    val_main_v56 (F := Ideal) x0 x1 x2 x3 x4 x5 x6 x7 x8 x9 x10 x11 x12 (ix4 b t s f)
      = slice (blk x0 b t) (blk x1 b t) (blk x2 b t) (mat x3) (mat x5) (mat x7) (mat x9) (vec x4) (vec x6) (vec x8) (vec x10)
          (mwOf x11) (tsOf x12 t) s f := by
  have hv : val_main_v56 (F := Ideal) x0 x1 x2 x3 x4 x5 x6 x7 x8 x9 x10 x11 x12
      = val_main_v3 (F := Ideal) (val_main_v52 (F := Ideal) x0 x1 x2 x3 x4 x5 x6 x7 x8 x11 x12) x9 x10 := rfl
  rw [hv, dense_apply]
  unfold slice
  have hm : blk (val_main_v52 (F := Ideal) x0 x1 x2 x3 x4 x5 x6 x7 x8 x11 x12) b t = mixedRow (lin (blk x0 b t) (mat x3) (vec x4)) (lin (blk x1 b t) (mat x5) (vec x6)) (lin (blk x2 b t) (mat x7) (vec x8)) (mwOf x11) (tsOf x12 t) :=
    funext fun q => funext fun e => relaid_apply x0 x1 x2 x3 x4 x5 x6 x7 x8 x11 x12 b t q e
  rw [hm]

/-- The reference's result array is the batch's result of its arguments. -/
theorem result_eq_batch (x0 : (⟨S4x32x256x512, .f32⟩ : BufTy).Contents (Elt Ideal)) (x1 : (⟨S4x32x256x512, .f32⟩ : BufTy).Contents (Elt Ideal)) (x2 : (⟨S4x32x256x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S2x8, .f32⟩ : BufTy).Contents (Elt Ideal)) (x12 : (⟨S32x8, .f32⟩ : BufTy).Contents (Elt Ideal)) :
    val_main_v56 (F := Ideal) x0 x1 x2 x3 x4 x5 x6 x7 x8 x9 x10 x11 x12 = batch x0 x1 x2 x3 x4 x5 x6 x7 x8 x9 x10 x11 x12 := by
  funext i
  rw [eq_ix4 i]
  exact result_apply x0 x1 x2 x3 x4 x5 x6 x7 x8 x9 x10 x11 x12 (i 0) (i 1) (i 2) (i 3)

end Cert.SpikeAttn.Ref

end
-- ==== Proof.lean ====
/-
  A fused multi-head attention kernel against its array-level reference, on the extended reals.

  The batch is 4 × 32 slices of 256 positions by 512 features.  For each slice the result is: three dense layers
  (queries, keys, values); eight heads of 64 features, each scoring queries against keys, scaling by 1/8, by a
  per-head weight and shifting by a per-head, per-time value; a sigmoid of five times the distance to the row's
  largest score, normalised by the row's total plus a small constant; the weighted values; the heads laid side by
  side; a last dense layer.

  The kernel computes one slice per grid point from the blocks it loads, head by head over 64-column pieces; the
  reference computes all slices at once with batched contractions over arrays of rank five.  Both are shown equal,
  index by index, to one function of the argument arrays (`Cert.SpikeAttn.batch`): the kernel's block at a grid
  point is that function's block, and the blocks tile the result; the reference's operations, read one at a time at
  an index, compose to the same function.  The only law between the two spellings is that dividing by 8 is
  multiplying by 1/8 (true at the infinities as well); the sums, maxima, quotients and the logistic function are
  the same extended-real operations on both sides, so the inputs' finiteness is never used.  The kernel's
  idealization rewrote nothing, so the fourth claim is trivial; the three frames are the generated ones, the
  reference's being its run with the result dropped.
-/
import proofs.«109024_j14929306321753_1_alg».proof.Defs
import proofs.«109024_j14929306321753_1_alg».proof.Proof.Gen.Kernel
import proofs.«109024_j14929306321753_1_alg».proof.Proof.Gen.Kernel.Skeleton
import proofs.«109024_j14929306321753_1_alg».proof.Proof.Gen.Kernel.Launch
import proofs.«109024_j14929306321753_1_alg».proof.Proof.Gen.Kernel.Points
import proofs.«109024_j14929306321753_1_alg».proof.Proof.Gen.Kernel.Frame
import proofs.«109024_j14929306321753_1_alg».proof.Proof.Gen.KernelIdeal
import proofs.«109024_j14929306321753_1_alg».proof.Proof.Gen.KernelIdeal.Skeleton
import proofs.«109024_j14929306321753_1_alg».proof.Proof.Gen.KernelIdeal.Launch
import proofs.«109024_j14929306321753_1_alg».proof.Proof.Gen.KernelIdeal.Points
import proofs.«109024_j14929306321753_1_alg».proof.Proof.Gen.KernelIdeal.Frame
import proofs.«109024_j14929306321753_1_alg».proof.Proof.Gen.KernelIdeal.Value
import proofs.«109024_j14929306321753_1_alg».proof.Proof.Gen.ReferenceIdeal
import proofs.«109024_j14929306321753_1_alg».proof.Proof.Gen.ReferenceIdeal.Run
import proofs.«109024_j14929306321753_1_alg».proof.Proof.Gen.ReferenceIdeal.Read
import proofs.«109024_j14929306321753_1_alg».proof.Proof.Gen.Pre_finite_inputs
import proofs.«109024_j14929306321753_1_alg».proof.Proof.KerArr
import proofs.«109024_j14929306321753_1_alg».proof.Proof.RefOut
import Idealize.ShloMosaic.Adequacy
import Idealize.ShloMosaic.Init

noncomputable section

namespace Cert.Proof

open Idealize.ShloMosaic Idealize.SL.Sem

/-- The word-level kernel's frame. -/
theorem frame_k : Cert.frame_Kernel := fun m ρ _ => Cert.Kernel.Gen.frame m ρ

/-- The idealized kernel's frame. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the batch's result of arguments that agree. -/
theorem algebraic : Cert.algebraic_KernelIdeal_ReferenceIdeal := by
  intro m ρ m' ρ' _ hagree
  refine ⟨_, Cert.KernelIdeal.Blk.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.SpikeAttn.Ref.result_eq_batch]
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
